-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "pos_big" .f32 0x7149F2CA#32 ⊤
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S128x8192 : Shape := ⟨2, ![128, 8192]⟩
abbrev S8192x1 : Shape := ⟨2, ![8192, 1]⟩
abbrev S1x8192 : Shape := ⟨2, ![1, 8192]⟩
abbrev S64x8x128 : Shape := ⟨3, ![64, 8, 128]⟩
abbrev S128x128 : Shape := ⟨2, ![128, 128]⟩
abbrev S128x1 : Shape := ⟨2, ![128, 1]⟩
abbrev S1x8x128 : Shape := ⟨3, ![1, 8, 128]⟩
abbrev S128 : Shape := ⟨1, ![128]⟩
abbrev S1 : Shape := ⟨1, ![1]⟩
abbrev S1x1 : Shape := ⟨2, ![1, 1]⟩
abbrev S1x128 : Shape := ⟨2, ![1, 128]⟩
abbrev S6x128 : Shape := ⟨2, ![6, 128]⟩
abbrev S8x128 : Shape := ⟨2, ![8, 128]⟩
abbrev S64x1x1 : Shape := ⟨3, ![64, 1, 1]⟩
abbrev S64 : Shape := ⟨1, ![64]⟩
abbrev S_ : Shape := ⟨0, ![]⟩

abbrev nBuf : Space → Nat
  | .hbm => 18
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S128x8192, .bf16⟩
  | .hbm, ⟨4, _⟩ => ⟨S8192x1, .i32⟩
  | .hbm, ⟨5, _⟩ => ⟨S1x8192, .i32⟩
  | .hbm, ⟨6, _⟩ => ⟨S64x8x128, .f32⟩
  | .hbm, ⟨7, _⟩ => ⟨S64x1x1, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S64x1x1, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S128x128, .bf16⟩
  | .local _ .vmem, ⟨1, _⟩ => ⟨S128x128, .bf16⟩
  | .local _ .vmem, ⟨2, _⟩ => ⟨S128x8192, .bf16⟩
  | .local _ .vmem, ⟨3, _⟩ => ⟨S128x1, .i32⟩
  | .local _ .vmem, ⟨4, _⟩ => ⟨S128x1, .i32⟩
  | .local _ .vmem, ⟨5, _⟩ => ⟨S1x8192, .i32⟩
  | .local _ .vmem, ⟨6, _⟩ => ⟨S1x8x128, .f32⟩
  | .local _ .vmem, ⟨7, _⟩ => ⟨S1x8x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  transposes_S8192x128_S128x8192_1_0 : S8192x128.Transposes [1, 0] S128x8192
  shapeCasts_S8192_S8192x1 : S8192.ShapeCasts S8192x1
  shapeCasts_S8192_S1x8192 : S8192.ShapeCasts S1x8192
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  iota_S128x8192_d1_w32 : S128x8192.Iotas .tc 32 [1]
  iota_S128x8192_d0_w32 : S128x8192.Iotas .tc 32 [0]
  reduces_S128x8192_S128 : S128x8192.Reduces [1] S128
  shapeCasts_S128_S128x1 : S128.ShapeCasts S128x1
  natLt_1_32 : 1 < 32
  reduces_S128x1_S1 : S128x1.Reduces [0] S1
  shapeCasts_S1_S1x1 : S1.ShapeCasts S1x1
  shapeCasts_S1x1_S1x1 : S1x1.ShapeCasts S1x1
  broadcasts_S1x1_S1x128 : S1x1.Broadcasts S1x128
  concatenates_S1x128_S1x128_S6x128_S8x128_d0 : Shape.Concatenates [S1x128, S1x128, S6x128] S8x128 0
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S64x8x128_S64x1x1_0_0_0 : S64x8x128.Slices ![0, 0, 0] S64x1x1
  shapeCasts_S64x1x1_S64 : S64x1x1.ShapeCasts S64
  reducesTo_S64_S_d0 : S64.ReducesTo [0] S_
  h_S_ : 0 < S_.numel
  slices_S64x8x128_S64x1x1_0_1_0 : S64x8x128.Slices ![0, 1, 0] S64x1x1
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .bf16 = 32 ∨ (Rect.block (s := S8192x128) S128x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x8192.size a
  hwx0_1 : ∀ i : grid0.Coords, EltTy.bits .bf16 = 32 ∨ (Rect.block (s := S128x8192) S128x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S64x8x128.size a
  hwx0_4 : ∀ i : grid0.Coords, EltTy.bits .f32 = 32 ∨ (Rect.block (s := S64x8x128) S1x8x128.size (cc0_transform_4 i) (hinb0_4 i)).WholeWords (EltTy.packing .f32)

variable [Facts₀]

def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_v0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 97
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .i1⟩
  | .hbm, ⟨16, _⟩ => ⟨S8192x8192, .i1⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .i1⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S8192x8192, .f32⟩
  | .hbm, ⟨42, _⟩ => ⟨S8192x8192, .i1⟩
  | .hbm, ⟨43, _⟩ => ⟨S8192x8192, .i1⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S8192, .f32⟩
  | .hbm, ⟨79, _⟩ => ⟨S_, .i1⟩
  | .hbm, ⟨80, _⟩ => ⟨S8192, .i1⟩
  | .hbm, ⟨81, _⟩ => ⟨S_, .i1⟩
  | .hbm, ⟨82, _⟩ => ⟨S8192, .i1⟩
  | .hbm, ⟨83, _⟩ => ⟨S8192, .i1⟩
  | .hbm, ⟨84, _⟩ => ⟨S_, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_call2_v0 : Ref sig .tc := ⟨.hbm, 52, rfl⟩
abbrev main_call2_v1 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_call3_v0 : Ref sig .tc := ⟨.hbm, 65, rfl⟩
abbrev main_call3_v1 : Ref sig .tc := ⟨.hbm, 66, rfl⟩
abbrev main_v43 : Ref sig .tc := ⟨.hbm, 67, rfl⟩
abbrev main_cst_12 : Ref sig .tc := ⟨.hbm, 68, rfl⟩
abbrev main_v44 : Ref sig .tc := ⟨.hbm, 69, rfl⟩
abbrev main_v45 : Ref sig .tc := ⟨.hbm, 70, rfl⟩
abbrev main_cst_13 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_14 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_15 : Ref sig .tc := ⟨.hbm, 79, rfl⟩
abbrev main_v52 : Ref sig .tc := ⟨.hbm, 80, rfl⟩
abbrev main_c_16 : Ref sig .tc := ⟨.hbm, 81, rfl⟩
abbrev main_v53 : Ref sig .tc := ⟨.hbm, 82, rfl⟩
abbrev main_v54 : Ref sig .tc := ⟨.hbm, 83, rfl⟩
abbrev main_cst_17 : Ref sig .tc := ⟨.hbm, 84, rfl⟩
abbrev main_call4_v0 : Ref sig .tc := ⟨.hbm, 85, rfl⟩
abbrev main_call4_v1 : Ref sig .tc := ⟨.hbm, 86, rfl⟩
abbrev main_v55 : Ref sig .tc := ⟨.hbm, 87, rfl⟩
abbrev main_v56 : Ref sig .tc := ⟨.hbm, 88, rfl⟩
abbrev main_c_18 : Ref sig .tc := ⟨.hbm, 89, rfl⟩
abbrev main_v57 : Ref sig .tc := ⟨.hbm, 90, rfl⟩
abbrev main_c_19 : Ref sig .tc := ⟨.hbm, 91, rfl⟩
abbrev main_v58 : Ref sig .tc := ⟨.hbm, 92, rfl⟩
abbrev main_v59 : Ref sig .tc := ⟨.hbm, 93, rfl⟩
abbrev main_cst_20 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  natLt_1_32 : 1 < 32
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The multi-similarity loss with hard mining, as ONE function of the embedding array `e` ([8192, 128]) and the label
  array `l` ([8192]), written row by row over the extended reals.

  For a row `R` let `s c = ∑ k, e (R, k) * e (c, k)` be its similarities, `q c` the word "label R = label c" and
  `d c` the word "c = R". A column is POSITIVE when `q c` and not `d c`, NEGATIVE when not `q c`. The mined
  negatives are those with `s c > minPos - 0.1`, `minPos` the least positive similarity (`+∞` when there is none); the
  mined positives those with `s c < maxNeg + 0.1`, `maxNeg` the greatest mined negative similarity (`-∞` when there is
  none). The row's loss is `log1p (∑ mined positives exp (-2 (s - 1/2))) / 2 + log1p (∑ mined negatives exp (50 (s - 1/2))) / 50`
  when it has a mined positive and a mined negative, else `0`; the result is the sum of the rows' losses over the number
  of such rows, or over `1` when there is none. Float literals stay the binary words both programs print.
-/
import Idealize.ShloMosaic.Lib.ValueIdx
import Idealize.ShloMosaic.PureOps.Ideal
import Idealize.ShloMosaic.PureOps.Ideal.Laws

noncomputable section

open scoped BigOperators

namespace Cert.Mining

open Idealize.ShloMosaic Idealize.ShloMosaic.ValueIdx

/-! ## One row, from its similarities `s`, its same-label words `q` and its diagonal words `d` -/

section Row

variable (s : Fin 8192 → EReal) (q d : Fin 8192 → BitVec 1)

/-- Column `c` is a positive of the row: same label, not the row itself. -/
def pos (c : Fin 8192) : BitVec 1 := IntOp.andi (q c) (~~~ d c)

/-- Column `c` is a negative of the row: another label. -/
def neg (c : Fin 8192) : BitVec 1 := ~~~ q c

/-- The least similarity among the positives, `+∞` when there is none. -/
def minPos : EReal :=
  (Finset.univ : Finset (Fin 8192)).fold min (Ideal.ofBits .f32 0x7F800000#32) fun c => Scalar.select (pos q d c) (s c) ⊤

/-- The mined negatives: the negatives more similar than `minPos - 0.1`. -/
def neg2 (c : Fin 8192) : BitVec 1 :=
  IntOp.andi (neg q c) (Ideal.cmp .ogt (s c) (minPos s q d - Ideal.ofBits .f32 0x3DCCCCCD#32))

/-- The greatest similarity among the mined negatives, `-∞` when there is none. -/
def maxNeg : EReal :=
  (Finset.univ : Finset (Fin 8192)).fold max (Ideal.ofBits .f32 0xFF800000#32) fun c => Scalar.select (neg2 s q d c) (s c) ⊥

/-- The mined positives: the positives less similar than `maxNeg + 0.1`. -/
def pos2 (c : Fin 8192) : BitVec 1 :=
  IntOp.andi (pos q d c) (Ideal.cmp .olt (s c) (maxNeg s q d + Ideal.ofBits .f32 0x3DCCCCCD#32))

def posSum : EReal :=
  ∑ c : Fin 8192, Scalar.select (pos2 s q d c) (Ideal.exp (Ideal.ofBits .f32 0xC0000000#32 * (s c - Ideal.ofBits .f32 0x3F000000#32))) 0

def negSum : EReal :=
  ∑ c : Fin 8192, Scalar.select (neg2 s q d c) (Ideal.exp (Ideal.ofBits .f32 0x42480000#32 * (s c - Ideal.ofBits .f32 0x3F000000#32))) 0

def loss : EReal :=
  Ideal.div (Ideal.log1p (posSum s q d)) (Ideal.ofBits .f32 0x40000000#32)
    + Ideal.div (Ideal.log1p (negSum s q d)) (Ideal.ofBits .f32 0x42480000#32)

/-- The row counts: it has a mined positive and a mined negative. -/
def valid : BitVec 1 :=
  IntOp.andi ((Finset.univ : Finset (Fin 8192)).fold IntOp.ori 0#1 (pos2 s q d))
    ((Finset.univ : Finset (Fin 8192)).fold IntOp.ori 0#1 (neg2 s q d))

def rowLoss : EReal := Scalar.select (valid s q d) (loss s q d) 0

/-- `1` for a row that counts, `0` for one that does not. -/
def rowCount : EReal := ((((valid s q d).setWidth 32).toInt : ℝ) : EReal)

end Row

/-! ## The whole arrays -/

variable (e : (⟨2, ![8192, 128]⟩ : Shape).Idx → EReal) (l : (⟨1, ![8192]⟩ : Shape).Idx → BitVec 32)

def sim (R c : Fin 8192) : EReal := ∑ k : Fin 128, e (ix2 R k) * e (ix2 c k)

def same (R c : Fin 8192) : BitVec 1 := IntOp.cmpi .eq (l (ix1 R)) (l (ix1 c))

def diag (R c : Fin 8192) : BitVec 1 := IntOp.cmpi .eq (BitVec.ofNat 32 R.val) (BitVec.ofNat 32 c.val)

def total : EReal := ∑ R : Fin 8192, rowLoss (sim e R) (same l R) (diag R)

def count : EReal := ∑ R : Fin 8192, rowCount (sim e R) (same l R) (diag R)

/-- The loss: the rows' losses summed, over the number of rows that count (or `1`). -/
def result : EReal := Ideal.div (total e l) (max (count e l) (Ideal.ofBits .f32 0x3F800000#32))

end Cert.Mining

end
-- ==== Proof.LibCol.lean ====
/-
  Columns and rows read at an index: a vector of `a` entries laid out as a column `[a, 1]` or a row `[1, a]`, a column
  repeated along `b` lanes, and the source index of a reduction over the last axis of a two-axis array.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.LibCol

open Idealize.ShloMosaic Idealize.ShloMosaic.ValueIdx

variable {α : Type}

/-- An `[a]` vector cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` repeated along `b` lanes reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's layout of an `[a]` vector as a column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The host's repetition of a column `[a, 1]` along `b` lanes reads, at `(p, c)`, the column at `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's layout of an `[a]` vector as a row `[1, a]` reads, at `(u, q)`, the vector at `q`. -/
theorem broadcastInDim_a_1a_apply {a : ℕ} (x : (⟨1, ![a]⟩ : Shape).Idx → α)
    (h : (⟨1, ![a]⟩ : Shape).BroadcastsInDim ⟨2, ![1, a]⟩ ![1]) (u : Fin 1) (q : Fin a) :
    broadcastInDim ⟨2, ![1, a]⟩ ![1] h x (ix2 u q) = x (ix1 q) := by
  refine broadcastInDim_apply ![1] h x (ix2 u q) (ix1 q) fun ax => ?_
  match ax with
  | ⟨0, _⟩ =>
    show q.val = if a = 1 then 0 else q.val
    split
    · have := q.isLt; omega
    · rfl

/-- Reducing a two-axis array over its last axis: the source index over row `p` with lane `k` is `(p, k)`. -/
theorem lift_last {R C : ℕ} (h : (⟨2, ![R, C]⟩ : Shape).Reduces [1] ⟨1, ![R]⟩) (p : Fin R) (k : Fin C) :
    h.lift (ix1 p) k = ix2 p k :=
  funext fun c => Fin.ext (by
    match c with
    | ⟨0, _⟩ => rfl
    | ⟨1, _⟩ => rfl)

/-- Reducing a two-axis array over its first axis: the source index over lane `q` with row `k` is `(k, q)`. -/
theorem lift_first {R C : ℕ} (h : (⟨2, ![R, C]⟩ : Shape).Reduces [0] ⟨1, ![C]⟩) (q : Fin C) (k : Fin R) :
    h.lift (ix1 q) k = ix2 k q :=
  funext fun c => Fin.ext (by
    match c with
    | ⟨0, _⟩ => rfl
    | ⟨1, _⟩ => rfl)

end Cert.LibCol

end
-- ==== Proof.LibDot.lean ====
/-
  A plain matrix product read at an entry. For dimension numbers that contract the left operand's columns against the
  right operand's rows, with no batch axis, the contraction sum at row `a` and column `b` is the textbook
  sum over `k` of `l (a, k) * r (k, b)`, both for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDot

open Idealize.ShloMosaic Idealize.ShloMosaic.ValueIdx

/-- The six axis lists of a rows-by-columns product. -/
structure IsPlain {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {M K N : Nat} (D : DotDims ⟨2, ![M, K]⟩ ⟨2, ![K, N]⟩ ⟨2, ![M, N]⟩) (hD : IsPlain D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at row `a` of the result and at the contraction coordinate. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
theorem rhs1 (j : (⟨2, ![M, N]⟩ : Shape).Idx) (q : D.contr.Idx) : (D.rhsIdx j q 1).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of the row entry times the column entry. -/
theorem plain_sum (l : (⟨2, ![M, K]⟩ : Shape).Idx → EReal) (r : (⟨2, ![K, N]⟩ : Shape).Idx → EReal) (a : Fin M) (b : Fin N) :
    ∑ q : D.contr.Idx, l (D.lhsIdx (ix2 a b) q) * r (D.rhsIdx (ix2 a b) q) = ∑ k : Fin K, l (ix2 a k) * r (ix2 k b) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 k b :=
    funext fun x => Fin.ext (by
      match x with
      | ⟨0, _⟩ => exact (D.rhsIdx_val_of_single hD.rc _ _).trans hk
      | ⟨1, _⟩ => exact rhs1 D hD _ _)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![K, N]⟩ φ₂) (a : Fin M) (b : Fin N) :
    FloatOps.matmul D prec l r (constant ⟨2, ![M, N]⟩ .f32 0x00000000#32) (ix2 a b) = ∑ k : Fin K, l (ix2 a k) * r (ix2 k b) :=
  (Ideal.matmul_constant_zero_apply D prec l r (ix2 a b)).trans (plain_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) :=
  (Ideal.dotGeneral_apply D prec sched l r (ix2 a b)).trans (plain_sum D hD l r a b)

end Cert.LibDot

end
-- ==== Proof.LibRowReduce.lean ====
/-
  Row and column reductions of a two-axis array read at an index, at the exact extended-real instance: the minimum,
  maximum and sum of a row `p` of an `[R, C]` array are the fold of `min` / `max` from the accumulator's value, or the sum, over
  the row's entries `src (p, c)`; the sum over the rows of a one-column array `[R, 1]` is the sum of its entries.
-/
import Idealize.ShloMosaic.Lib.ValueIdx
import Idealize.ShloMosaic.PureOps.Ideal.Laws
import Idealize.ShloMosaic.PureOps.Reduce
import proofs.«101984_j78185584656815_2_alg».proof.Proof.LibCol

noncomputable section

open scoped BigOperators

namespace Cert.LibRowReduce

open Idealize.ShloMosaic Idealize.ShloMosaic.ValueIdx

variable {R C : ℕ}

/-- The least entry of row `p`, from the accumulator's value. -/
theorem row_min (src : FVec Ideal ⟨2, ![R, C]⟩ .f32) (acc : BitVec 32) (h : (⟨2, ![R, C]⟩ : Shape).Reduces [1] ⟨1, ![R]⟩)
    (hφ : FKind.Formats .f32) (hacc : acc = FKind.minimumf.neutral .f32 hφ) (p : Fin R) :
    multiReduction .minimumf [1] ⟨1, ![R]⟩ src acc h hφ hacc (ix1 p)
      = (Finset.univ : Finset (Fin C)).fold min (Ideal.ofBits .f32 acc) fun c => src (ix2 p c) := by
  rw [multiReduction_minimumf_eq_fold]
  refine (h.fold_filter_drop_single _ _ src (ix1 p)).trans ?_
  exact congrArg (fun f => Finset.fold min (Ideal.ofBits .f32 acc) f (Finset.univ : Finset (Fin C)))
    (funext fun c => congrArg src (LibCol.lift_last h p c))

/-- The greatest entry of row `p`, from the accumulator's value. -/
theorem row_max (src : FVec Ideal ⟨2, ![R, C]⟩ .f32) (acc : BitVec 32) (h : (⟨2, ![R, C]⟩ : Shape).Reduces [1] ⟨1, ![R]⟩)
    (hφ : FKind.Formats .f32) (hacc : acc = FKind.maximumf.neutral .f32 hφ) (p : Fin R) :
    multiReduction .maximumf [1] ⟨1, ![R]⟩ src acc h hφ hacc (ix1 p)
      = (Finset.univ : Finset (Fin C)).fold max (Ideal.ofBits .f32 acc) fun c => src (ix2 p c) := by
  rw [multiReduction_maximumf_eq_fold]
  refine (h.fold_filter_drop_single _ _ src (ix1 p)).trans ?_
  exact congrArg (fun f => Finset.fold max (Ideal.ofBits .f32 acc) f (Finset.univ : Finset (Fin C)))
    (funext fun c => congrArg src (LibCol.lift_last h p c))

/-- The sum of row `p`. -/
theorem row_sum (src : FVec Ideal ⟨2, ![R, C]⟩ .f32) (acc : BitVec 32) (h : (⟨2, ![R, C]⟩ : Shape).Reduces [1] ⟨1, ![R]⟩)
    (hφ : FKind.Formats .f32) (hacc : acc = FKind.add.neutral .f32 hφ) (p : Fin R) :
    multiReduction .add [1] ⟨1, ![R]⟩ src acc h hφ hacc (ix1 p) = ∑ c : Fin C, src (ix2 p c) :=
  (Ideal.multiReduction_add_single src acc h hφ hacc (ix1 p)).trans
    (Finset.sum_congr rfl fun c _ => congrArg src (LibCol.lift_last h p c))

/-- The sum of a column `q` over the rows. -/
theorem col_sum (src : FVec Ideal ⟨2, ![R, C]⟩ .f32) (acc : BitVec 32) (h : (⟨2, ![R, C]⟩ : Shape).Reduces [0] ⟨1, ![C]⟩)
    (hφ : FKind.Formats .f32) (hacc : acc = FKind.add.neutral .f32 hφ) (q : Fin C) :
    multiReduction .add [0] ⟨1, ![C]⟩ src acc h hφ hacc (ix1 q) = ∑ r : Fin R, src (ix2 r q) :=
  (Ideal.multiReduction_add_single src acc h hφ hacc (ix1 q)).trans
    (Finset.sum_congr rfl fun r _ => congrArg src (LibCol.lift_first h q r))

end Cert.LibRowReduce

end
-- ==== Proof.LibMaskCount.lean ====
/-
  One-bit words as masks, and counting them.

  The float words for +infinity, -infinity and one denote the extended reals they name. A one-bit word widened to
  32 bits and read as a signed integer is 0 or 1; hence a sum of such terms is the number of set words, the test
  "sum > 0" is the OR of the words, and a 32-bit count of fewer than 2^31 words never wraps, so the greater of the
  count and one, read as a real, is the greater of the real count and one. Last, a sum over 8192 rows is the sum over
  64 tiles of the sums over each tile's 128 rows.
-/
import Mathlib.Algebra.BigOperators.Fin
import Mathlib.Algebra.BigOperators.Group.Finset.Basic
import Mathlib.Data.EReal.Basic
import Mathlib.Logic.Equiv.Fin.Basic
import Idealize.ShloMosaic.PureOps.Ideal
import Idealize.ShloMosaic.PureOps.Ideal.Laws

noncomputable section

open scoped BigOperators

namespace Cert.LibMaskCount

open Idealize.ShloMosaic

/-- exclusive or with the set word is complement -/
theorem xori_one (x : BitVec 1) : IntOp.xori x 1#1 = ~~~ x := by
  revert x; decide

theorem ofBits_inf : Ideal.ofBits .f32 0x7F800000#32 = (⊤ : EReal) := by
  simp [Ideal.ofBits, Ideal.ieee]

theorem ofBits_neg_inf : Ideal.ofBits .f32 0xFF800000#32 = (⊥ : EReal) := by
  simp [Ideal.ofBits, Ideal.ieee]

theorem ofBits_one : Ideal.ofBits .f32 0x3F800000#32 = (1 : EReal) := by
  simp [Ideal.ofBits, Ideal.ieee]
  rw [← EReal.coe_mul]
  norm_num

/-- a one-bit word widened to 32 bits and read as a signed integer is 0 or 1 -/
theorem toInt_setWidth (b : BitVec 1) : ((b.setWidth 32).toInt : ℝ) = if b = 1#1 then 1 else 0 := by
  rcases BitVec.eq_zero_or_eq_one b with h | h <;> subst h
  · have : ((0#1).setWidth 32).toInt = 0 := by decide
    rw [this]; simp
  · have : ((1#1).setWidth 32).toInt = 1 := by decide
    rw [this]; simp

/-- 8192 rows are 64 tiles of 128 rows -/
theorem sum_tiles {M : Type*} [AddCommMonoid M] (f : Fin 8192 → M) :
    ∑ t : Fin 64, ∑ r : Fin 128, f ⟨128 * t.val + r.val, by omega⟩ = ∑ R : Fin 8192, f R := by
  rw [← Fintype.sum_prod_type (f := fun p : Fin 64 × Fin 128 => f ⟨128 * p.1.val + p.2.val, by omega⟩)]
  refine Fintype.sum_equiv (finProdFinEquiv (m := 64) (n := 128)) _ _ ?_
  rintro ⟨t, r⟩
  congr 1
  apply Fin.ext
  simp [finProdFinEquiv]
  omega

/-- the coercion of reals into the extended reals commutes with finite sums -/
theorem coe_sum {ι : Type*} (s : Finset ι) (f : ι → ℝ) :
    ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- a sum of widened one-bit words is the number of set words -/
theorem sum_toInt_eq_card {ι : Type*} (s : Finset ι) (m : ι → BitVec 1) :
    ∑ c ∈ s, ((((m c).setWidth 32).toInt : ℝ) : EReal)
      = (((s.filter fun c => m c = 1#1).card : ℝ) : EReal) := by
  rw [← coe_sum]
  congr 1
  simp only [toInt_setWidth]
  rw [Finset.sum_boole]

/-- the OR of a family of one-bit words is set iff some word is set -/
theorem fold_ori_eq_one_iff {ι : Type*} [DecidableEq ι] (s : Finset ι) (m : ι → BitVec 1) :
    s.fold IntOp.ori 0#1 m = 1#1 ↔ ∃ c ∈ s, m c = 1#1 := by
  induction s using Finset.induction_on with
  | empty => simp
  | insert a s ha ih =>
    have key : ∀ x y : BitVec 1, IntOp.ori x y = 1#1 ↔ (x = 1#1 ∨ y = 1#1) := by decide
    rw [Finset.fold_insert ha, key, ih, Finset.exists_mem_insert]

/-- a one-bit word is the truth value of a proposition equivalent to its being set -/
theorem ofBool_decide_eq (x : BitVec 1) (p : Prop) [Decidable p] (h : x = 1#1 ↔ p) :
    BitVec.ofBool (decide p) = x := by
  rcases BitVec.eq_zero_or_eq_one x with hx | hx <;> subst hx
  · have hp : ¬ p := fun hp => absurd (h.mpr hp) (by decide)
    simp [hp]
  · have hp : p := h.mp rfl
    simp [hp]

/-- a sum of 0/1 terms is positive iff some word is set: the float test "sum > 0" is the OR of the words -/
theorem cmp_ogt_sum_eq_fold_ori {n : ℕ} (m : Fin n → BitVec 1) :
    Ideal.cmp .ogt (∑ c : Fin n, ((((m c).setWidth 32).toInt : ℝ) : EReal)) 0
      = (Finset.univ : Finset (Fin n)).fold IntOp.ori 0#1 m := by
  rw [sum_toInt_eq_card]
  show BitVec.ofBool (decide ((0 : EReal) < _)) = _
  apply ofBool_decide_eq
  rw [fold_ori_eq_one_iff, show (0 : EReal) = ((0 : ℝ) : EReal) from rfl, EReal.coe_lt_coe_iff, Nat.cast_pos,
    Finset.card_pos]
  simp [Finset.Nonempty]

/-- a 32-bit sum of widened one-bit words is the number of set words, as long as there are fewer than 2^32 of them -/
theorem fold_addi_toNat {ι : Type*} [DecidableEq ι] (s : Finset ι) (v : ι → BitVec 1) (hs : s.card < 2 ^ 32) :
    (s.fold IntOp.addi 0#32 fun R => (v R).setWidth 32).toNat = (s.filter fun R => v R = 1#1).card := by
  induction s using Finset.induction_on with
  | empty => simp
  | insert a s ha ih =>
    rw [Finset.card_insert_of_notMem ha] at hs
    have ih' := ih (by omega)
    have hle : (s.filter fun R => v R = 1#1).card ≤ s.card := Finset.card_filter_le _ _
    have h0 : ((0#1).setWidth 32).toNat = 0 := by decide
    have h1 : ((1#1).setWidth 32).toNat = 1 := by decide
    rw [Finset.fold_insert ha, Finset.filter_insert]
    show (((v a).setWidth 32) + _).toNat = _
    rw [BitVec.toNat_add, ih']
    rcases BitVec.eq_zero_or_eq_one (v a) with h | h <;> rw [h]
    · rw [h0, if_neg (by decide)]
      omega
    · have hna : a ∉ s.filter fun R => v R = 1#1 := fun hm => ha (Finset.mem_of_mem_filter _ hm)
      rw [h1, if_pos rfl, Finset.card_insert_of_notMem hna]
      omega

/-- counting in 32-bit integers does not wrap below 2^31 terms: max(count,1) converted to a real is max of the real count and 1 -/
theorem count_eq {n : ℕ} (hn : n < 2 ^ 31) (v : Fin n → BitVec 1) :
    ((((IntOp.maxsi ((Finset.univ : Finset (Fin n)).fold IntOp.addi 0#32 fun R => (v R).setWidth 32) 1#32).toInt : ℝ)) : EReal)
      = max (∑ R : Fin n, ((((v R).setWidth 32).toInt : ℝ) : EReal)) 1 := by
  rw [sum_toInt_eq_card]
  have hcard : (Finset.univ : Finset (Fin n)).card = n := by simp
  have hxk := fold_addi_toNat (Finset.univ : Finset (Fin n)) v (by rw [hcard]; omega)
  have hk' : ((Finset.univ : Finset (Fin n)).filter fun R => v R = 1#1).card < 2 ^ 31 := by
    have := Finset.card_filter_le (Finset.univ : Finset (Fin n)) (fun R => v R = 1#1)
    omega
  generalize ((Finset.univ : Finset (Fin n)).filter fun R => v R = 1#1).card = k at hxk hk' ⊢
  generalize ((Finset.univ : Finset (Fin n)).fold IntOp.addi 0#32 fun R => (v R).setWidth 32) = x at hxk ⊢
  have hxi : x.toInt = (k : ℤ) := by
    rw [BitVec.toInt_eq_toNat_cond, hxk]
    split_ifs <;> omega
  have h1 : (1#32).toInt = 1 := by decide
  have hmax : ((IntOp.maxsi x 1#32).toInt : ℝ) = max (k : ℝ) 1 := by
    unfold IntOp.maxsi
    by_cases h : (1 : ℤ) < k
    · rw [if_pos (by simp only [BitVec.slt, h1, hxi]; exact decide_eq_true h), hxi, max_eq_left]
      · push_cast; rfl
      · exact_mod_cast h.le
    · rw [if_neg (by simp only [BitVec.slt, h1, hxi]; simpa using h), h1, max_eq_right]
      · push_cast; rfl
      · exact_mod_cast (not_lt.mp h)
  rw [hmax, ← EReal.coe_one]
  exact EReal.coe_strictMono.monotone.map_max

end Cert.LibMaskCount

end
-- ==== Proof.KernelRows.lean ====
/-
  The kernel body's arithmetic, read row by row. At a grid point with coordinate `i`, from the point's blocks
  `x0` (128 rows of embeddings), `x1` (all embeddings, transposed), `x2` (the 128 rows' labels, a column) and `x3` (all
  labels, a row): row `r` of the tile has similarities `sK r c = ∑ k, x0 (r, k) * x1 (k, c)`, same-label words
  `qK r c` and diagonal words `dK r c` ("column c is row r + 128 i"), and the body's masks, row minimum, row maximum
  and row sums are the specification's `pos`, `neg2`, `pos2`, `minPos`, `maxNeg`, `posSum`, `negSum` of these; the two
  numbers the body stores are the tile's sum of row losses and its number of rows that count.
-/
import proofs.«101984_j78185584656815_2_alg».proof.Proof.Gen.KernelIdeal.Skeleton
import proofs.«101984_j78185584656815_2_alg».proof.Proof.Spec
import proofs.«101984_j78185584656815_2_alg».proof.Proof.LibCol
import proofs.«101984_j78185584656815_2_alg».proof.Proof.LibDot
import proofs.«101984_j78185584656815_2_alg».proof.Proof.LibRowReduce
import proofs.«101984_j78185584656815_2_alg».proof.Proof.LibMaskCount
import Idealize.ShloMosaic.Lib.Pipeline.Value
import Idealize.ShloMosaic.Lib.ValueLayout
import Idealize.ShloMosaic.PureOps.IdealRules

noncomputable section

open scoped BigOperators

namespace Cert.KernelIdeal.Rows

open Cert.KernelIdeal Cert.KernelIdeal.Gen Idealize.ShloMosaic Idealize.ShloMosaic.ValueIdx Cert.Mining

variable (i : grid0.Coords) (x0 : Vec Ideal S128x128 .bf16) (x1 : Vec Ideal S128x8192 .bf16)
  (x2 : Vec Ideal S128x1 .i32) (x3 : Vec Ideal S1x8192 .i32)

/-- The similarity of the tile's row `r` with row `c` of the whole array. -/
def sK (r : Fin 128) (c : Fin 8192) : EReal := ∑ k : Fin 128, x0 (ix2 r k) * x1 (ix2 k c)

/-- The word "the tile's row `r` and row `c` carry one label". -/
def qK (r : Fin 128) (c : Fin 8192) : BitVec 1 := IntOp.cmpi .eq (x2 (ix2 r (0 : Fin 1))) (x3 (ix2 (0 : Fin 1) c))

/-- The word "column `c` is the tile's row `r` itself", in the body's 32-bit arithmetic. -/
def dK (r : Fin 128) (c : Fin 8192) : BitVec 1 :=
  IntOp.cmpi .eq (BitVec.ofNat 32 c.val) (IntOp.addi (BitVec.ofNat 32 r.val) (Scalar.muli (BitVec.ofNat 32 (i 0).val) 128#32))

/-! ## The pointwise operations at an index -/

theorem andi_apply {s : Shape} {w : ℕ} (x y : IVec s w) (j : s.Idx) : andi x y j = IntOp.andi (x j) (y j) := rfl
theorem xori_apply {s : Shape} {w : ℕ} (x y : IVec s w) (j : s.Idx) : xori x y j = IntOp.xori (x j) (y j) := rfl
theorem addi_apply {s : Shape} {w : ℕ} (x y : IVec s w) (j : s.Idx) : addi x y j = IntOp.addi (x j) (y j) := rfl
theorem cmpi_apply {s : Shape} {w : ℕ} (p : CmpIPredicate) (x y : IVec s w) (j : s.Idx) :
    cmpi p x y j = IntOp.cmpi p (x j) (y j) := rfl
theorem exp_apply {s : Shape} {φ : FTy} (a : FVec Ideal s φ) (j : s.Idx) : exp a j = Ideal.exp (a j) := rfl
theorem log1p_apply {s : Shape} {φ : FTy} (a : FVec Ideal s φ) (j : s.Idx) : log1p a j = Ideal.log1p (a j) := rfl

/-- The two named fills are the infinities. -/
theorem pos_big : Named.named (F := Ideal) κ "pos_big" (φ := .f32) 0x7149F2CA#32 = (⊤ : EReal) :=
  IdealRules.named_const.ideal_named_scalar _ _ _ _ rfl
theorem neg_big : Named.named (F := Ideal) κ "neg_big" (φ := .f32) 0xF149F2CA#32 = (⊥ : EReal) :=
  IdealRules.named_const.ideal_named_scalar _ _ _ _ rfl

theorem pay7_apply (j : S128x8192.Idx) : k0_pay7 (F := Ideal) j = Ideal.ofBits .f32 0x3F000000#32 := rfl

/-! ## The masks and the mined sets -/

theorem plain : LibDot.IsPlain dot_S128x128_S128x8192_S128x8192_1_0_0_1_n_n := ⟨rfl, rfl, rfl, rfl, rfl, rfl⟩

/-- The matrix product into zero, at an entry. -/
theorem pay2_apply (r : Fin 128) (c : Fin 8192) : k0_pay2 (F := Ideal) x0 x1 (ix2 r c) = sK x0 x1 r c := by
  unfold k0_pay2 sK
  simp only [shapeCast_self]
  exact LibDot.matmul_zero_apply _ plain none x0 x1 r c

/-- The labels' column against the labels' row. -/
theorem pay3_apply (r : Fin 128) (c : Fin 8192) : k0_pay3 (F := Ideal) x2 x3 (ix2 r c) = qK x2 x3 r c := by
  unfold k0_pay3 qK
  simp only [shapeCast_self, cmpi_apply, LibCol.broadcastTo_a1_ab_apply, broadcastTo_1b_ab_apply]

/-- The positives: same label, off the diagonal. -/
theorem pay4_apply (r : Fin 128) (c : Fin 8192) :
    k0_pay4 (F := Ideal) i x2 x3 (ix2 r c) = pos (qK x2 x3 r) (dK i r) c := by
  unfold k0_pay4 pos dK
  simp only [andi_apply, xori_apply, cmpi_apply, addi_apply, pay3_apply, broadcast_apply, constantI_apply,
    LibMaskCount.xori_one]
  rw [iota_single_apply .tc S128x8192 32 1, iota_single_apply .tc S128x8192 32 0]

/-- The mined negatives: the row minimum over the positives is the specification's `minPos`. -/
theorem pay5_apply (r : Fin 128) (c : Fin 8192) :
    k0_pay5 (F := Ideal) i x0 x1 x2 x3 (ix2 r c) = neg2 (sK x0 x1 r) (qK x2 x3 r) (dK i r) c := by
  unfold k0_pay5
  simp only [andi_apply, xori_apply, constantI_apply, LibMaskCount.xori_one, pay3_apply]
  unfold neg2 neg
  refine congrArg (IntOp.andi _) ?_
  rw [cmpf_apply, LibCol.broadcastTo_a1_ab_apply, pay2_apply, subf_apply, broadcast_apply,
    LibCol.shapeCast_a_a1_apply, Ideal.cmpf_def, Ideal.ofBits_def]
  refine congrArg (fun z => Ideal.cmp .ogt (sK x0 x1 r c) (z - Ideal.ofBits .f32 0x3DCCCCCD#32)) ?_
  refine (LibRowReduce.row_min _ _ _ _ _ r).trans ?_
  unfold minPos
  refine congrArg (fun f => Finset.fold min (Ideal.ofBits .f32 0x7F800000#32) f (Finset.univ : Finset (Fin 8192)))
    (funext fun c' => ?_)
  rw [select_apply, pay4_apply, pay2_apply, broadcast_apply, pos_big]

/-- The mined positives: the row maximum over the mined negatives is the specification's `maxNeg`. -/
theorem pay6_apply (r : Fin 128) (c : Fin 8192) :
    k0_pay6 (F := Ideal) i x0 x1 x2 x3 (ix2 r c) = pos2 (sK x0 x1 r) (qK x2 x3 r) (dK i r) c := by
  unfold k0_pay6
  simp only [andi_apply, pay4_apply]
  unfold pos2
  refine congrArg (IntOp.andi _) ?_
  rw [cmpf_apply, LibCol.broadcastTo_a1_ab_apply, pay2_apply, addf_apply, broadcast_apply,
    LibCol.shapeCast_a_a1_apply, Ideal.cmpf_def, Ideal.ofBits_def]
  refine congrArg (fun z => Ideal.cmp .olt (sK x0 x1 r c) (z + Ideal.ofBits .f32 0x3DCCCCCD#32)) ?_
  refine (LibRowReduce.row_max _ _ _ _ _ r).trans ?_
  unfold maxNeg
  refine congrArg (fun f => Finset.fold max (Ideal.ofBits .f32 0xFF800000#32) f (Finset.univ : Finset (Fin 8192)))
    (funext fun c' => ?_)
  rw [select_apply, pay5_apply, pay2_apply, broadcast_apply, neg_big]

/-! ## The rows that count -/

/-- "The row has a set word" tested as "the sum of the words is positive", for both masks. -/
theorem pay8_apply (v29 v38 : IVec S128x8192 1) (r : Fin 128) :
    k0_pay8 (F := Ideal) v29 v38 (ix2 r (0 : Fin 1))
      = IntOp.andi ((Finset.univ : Finset (Fin 8192)).fold IntOp.ori 0#1 fun c => v38 (ix2 r c))
          ((Finset.univ : Finset (Fin 8192)).fold IntOp.ori 0#1 fun c => v29 (ix2 r c)) := by
  unfold k0_pay8
  simp only [andi_apply]
  rw [cmpf_apply, cmpf_apply, LibCol.shapeCast_a_a1_apply, LibCol.shapeCast_a_a1_apply, broadcast_apply,
    Ideal.cmpf_def, Ideal.cmpf_def, Ideal.ofBits_def, Ideal.ofBits_zero_f32]
  refine congrArg₂ IntOp.andi ?_ ?_
  · refine (congrArg (fun z => Ideal.cmp .ogt z 0)
      ((LibRowReduce.row_sum _ _ _ _ _ r).trans (Finset.sum_congr rfl fun c _ => ?_))).trans
      (LibMaskCount.cmp_ogt_sum_eq_fold_ori fun c => v38 (ix2 r c))
    rfl
  · refine (congrArg (fun z => Ideal.cmp .ogt z 0)
      ((LibRowReduce.row_sum _ _ _ _ _ r).trans (Finset.sum_congr rfl fun c _ => ?_))).trans
      (LibMaskCount.cmp_ogt_sum_eq_fold_ori fun c => v29 (ix2 r c))
    rfl

/-- The word "row `r` of the tile counts" is the specification's `valid`. -/
theorem valid_apply (r : Fin 128) :
    k0_pay8 (F := Ideal) (k0_pay5 i x0 x1 x2 x3) (k0_pay6 i x0 x1 x2 x3) (ix2 r (0 : Fin 1))
      = valid (sK x0 x1 r) (qK x2 x3 r) (dK i r) := by
  rw [pay8_apply]
  unfold valid
  refine congrArg₂ IntOp.andi ?_ ?_
  · exact congrArg (fun f => Finset.fold IntOp.ori 0#1 f (Finset.univ : Finset (Fin 8192)))
      (funext fun c => pay6_apply i x0 x1 x2 x3 r c)
  · exact congrArg (fun f => Finset.fold IntOp.ori 0#1 f (Finset.univ : Finset (Fin 8192)))
      (funext fun c => pay5_apply i x0 x1 x2 x3 r c)

/-! ## The two numbers the body stores -/

/-- The tile's sum of row losses. -/
theorem tile_loss :
    k0_pay9 (F := Ideal) (k0_pay2 x0 x1) (k0_pay5 i x0 x1 x2 x3) (k0_pay6 i x0 x1 x2 x3) (k0_pay7 (F := Ideal))
        (ix2 (0 : Fin 1) (0 : Fin 1))
      = ∑ r : Fin 128, rowLoss (sK x0 x1 r) (qK x2 x3 r) (dK i r) := by
  unfold k0_pay9
  rw [LibCol.shapeCast_a_a1_apply]
  refine (LibRowReduce.col_sum _ _ _ _ _ (0 : Fin 1)).trans (Finset.sum_congr rfl fun r _ => ?_)
  rw [select_apply, valid_apply, broadcast_apply]
  repeat rw [Ideal.ofBits_def]
  rw [Ideal.ofBits_zero_f32]
  unfold rowLoss
  refine congrArg (fun z => Scalar.select (valid (sK x0 x1 r) (qK x2 x3 r) (dK i r)) z (0 : EReal)) ?_
  rw [addf_apply, divf_apply, divf_apply, log1p_apply, log1p_apply, broadcast_apply, broadcast_apply,
    LibCol.shapeCast_a_a1_apply, LibCol.shapeCast_a_a1_apply]
  unfold loss
  refine congrArg₂ (fun a b => Ideal.div (Ideal.log1p a) (Ideal.ofBits .f32 0x40000000#32)
    + Ideal.div (Ideal.log1p b) (Ideal.ofBits .f32 0x42480000#32)) ?_ ?_
  · refine (LibRowReduce.row_sum _ _ _ _ _ r).trans ?_
    unfold posSum
    refine Finset.sum_congr rfl fun c _ => ?_
    rw [select_apply, pay6_apply, exp_apply, mulf_apply, subf_apply, pay2_apply, pay7_apply]
    repeat rw [broadcast_apply]
  · refine (LibRowReduce.row_sum _ _ _ _ _ r).trans ?_
    unfold negSum
    refine Finset.sum_congr rfl fun c _ => ?_
    rw [select_apply, pay5_apply, exp_apply, mulf_apply, subf_apply, pay2_apply]
    repeat rw [broadcast_apply]

/-- The tile's number of rows that count. -/
theorem tile_count :
    k0_pay10 (F := Ideal) (k0_pay5 i x0 x1 x2 x3) (k0_pay6 i x0 x1 x2 x3) (ix1 (0 : Fin 1))
      = ∑ r : Fin 128, rowCount (sK x0 x1 r) (qK x2 x3 r) (dK i r) := by
  unfold k0_pay10
  refine (LibRowReduce.col_sum _ _ _ _ _ (0 : Fin 1)).trans (Finset.sum_congr rfl fun r _ => ?_)
  rw [sitofp_apply, extui_apply, valid_apply]
  rfl

/-! ## The stored block: the two numbers on rows 0 and 1 -/

theorem pay1_row0 (v80 : FVec Ideal S1x1 .f32) (v83 : FVec Ideal S1 .f32) (l : Fin 128) :
    k0_pay1 (F := Ideal) v80 v83 (ix3 (0 : Fin 1) (0 : Fin 8) l) = v80 (ix2 (0 : Fin 1) (0 : Fin 1)) := by
  unfold k0_pay1
  rw [shapeCast_ab_1ab_apply]
  refine Eq.trans (concatenate_apply_piece (0 : Fin 2) _ _ (ix2 (0 : Fin 8) l) 0 (by simp) S1x128 _ (by exact rfl)
    (by exact rfl) 0 (by exact rfl) (ix2 (0 : Fin 1) l) (fun b hb => ?_) (by exact rfl)) ?_
  · match b with
    | ⟨0, _⟩ => exact absurd rfl hb
    | ⟨1, _⟩ => rfl
  · rw [LibCol.broadcastTo_a1_ab_apply, shapeCast_self]

theorem pay1_row1 (v80 : FVec Ideal S1x1 .f32) (v83 : FVec Ideal S1 .f32) (l : Fin 128) :
    k0_pay1 (F := Ideal) v80 v83 (ix3 (0 : Fin 1) (1 : Fin 8) l) = v83 (ix1 (0 : Fin 1)) := by
  unfold k0_pay1
  rw [shapeCast_ab_1ab_apply]
  refine Eq.trans (concatenate_apply_piece (0 : Fin 2) _ _ (ix2 (1 : Fin 8) l) 1 (by simp) S1x128 _ (by exact rfl)
    (by exact rfl) 1 (by exact rfl) (ix2 (0 : Fin 1) l) (fun b hb => ?_) (by exact rfl)) ?_
  · match b with
    | ⟨0, _⟩ => exact absurd rfl hb
    | ⟨1, _⟩ => rfl
  · rw [LibCol.broadcastTo_a1_ab_apply, shapeCast_self, LibCol.shapeCast_a_a1_apply]

end Cert.KernelIdeal.Rows

end
-- ==== Proof.KernelBlocks.lean ====
/-
  The kernel's input blocks as reads of the argument arrays: at grid point `t` the first window holds rows
  `128 t … 128 t + 127` of the embeddings, the second their whole transpose, the third the labels of those rows as a
  column, the fourth all the labels as a row.
-/
import proofs.«101984_j78185584656815_2_alg».proof.Proof.KernelIdealFrame
import proofs.«101984_j78185584656815_2_alg».proof.Proof.LibCol
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Blocks

open Cert.KernelIdeal Cert.KernelIdeal.Gen Cert.KernelIdeal.GenP Idealize.ShloMosaic Idealize.ShloMosaic.TcCoe
  Idealize.ShloMosaic.ValueIdx Idealize.SL.Sem

variable (m : (ℓ : Loc nD τ sig) → Buf (Elt Ideal) ℓ) (c : Dev nD)

/-- The grid is one axis: the point's coordinate is the point. -/
theorem coord (t : Fin cfg0.N) : (grid0.coords t 0).val = t.val :=
  (by decide +kernel : ∀ t : Fin grid0.N, (grid0.coords t 0).val = t.val) t

/-- The grid has 64 points. -/
theorem t_lt (t : Fin cfg0.N) : t.val < 64 := lt_of_lt_of_eq t.isLt N_0

/-- The printed index maps, decided over the grid: the row windows move with the point, the whole-array windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- The embeddings narrowed to bf16, as the region finds them. -/
theorem V_main_v0 : @Eq (FVec Ideal S8192x128 .bf16) (V m c main_v0)
    (truncf .bf16 (m ((c : Thread nD τ).loc main_arg0) : FVec Ideal S8192x128 .f32) bitsLt_bf16_f32) := by
  dsimp only [GenP.V, GenP.V0]
  simp only [List.flatten_cons, List.flatten_nil, List.append_nil]
  show StableHlo.after hostOps0 (fun b => m (c, b)) (Proc.devRef .tc main_v0) = _
  after_results

/-- Their transpose, as the region finds it. -/
theorem V_main_v1 : @Eq (FVec Ideal S128x8192 .bf16) (V m c main_v1)
    (transpose S128x8192 [1, 0] (truncf .bf16 (m ((c : Thread nD τ).loc main_arg0) : FVec Ideal S8192x128 .f32) bitsLt_bf16_f32)
      transposes_S8192x128_S128x8192_1_0) := by
  dsimp only [GenP.V, GenP.V0]
  simp only [List.flatten_cons, List.flatten_nil, List.append_nil]
  show StableHlo.after hostOps0 (fun b => m (c, b)) (Proc.devRef .tc main_v1) = _
  after_results

/-- The labels as a column, as the region finds them. -/
theorem V_main_v2 : @Eq (IVec S8192x1 32) (V m c main_v2)
    (shapeCast S8192x1 (m ((c : Thread nD τ).loc main_arg1) : IVec S8192 32) shapeCasts_S8192_S8192x1) := by
  dsimp only [GenP.V, GenP.V0]
  simp only [List.flatten_cons, List.flatten_nil, List.append_nil]
  show StableHlo.after hostOps0 (fun b => m (c, b)) (Proc.devRef .tc main_v2) = _
  after_results
  rfl

/-- The labels as a row, as the region finds them. -/
theorem V_main_v3 : @Eq (IVec S1x8192 32) (V m c main_v3)
    (shapeCast S1x8192 (m ((c : Thread nD τ).loc main_arg1) : IVec S8192 32) shapeCasts_S8192_S1x8192) := by
  dsimp only [GenP.V, GenP.V0]
  simp only [List.flatten_cons, List.flatten_nil, List.append_nil]
  show StableHlo.after hostOps0 (fun b => m (c, b)) (Proc.devRef .tc main_v3) = _
  after_results
  rfl

/-- Window 0 at point `t`: rows `128 t … 128 t + 127` of the embeddings (narrowing is the identity on ideal values). -/
theorem blk0 (t : Fin cfg0.N) (r k : Fin 128) :
    iblk m c 0 t (ix2 r k)
      = m ((c : Thread nD τ).loc main_arg0) (ix2 (⟨128 * t.val + r.val, by have := t_lt t; omega⟩ : Fin 8192) k) := by
  obtain ⟨h00, h01, -⟩ := idx_facts t
  unfold iblk
  rw [View.read_apply]
  show (V m c main_v0 : FVec Ideal S8192x128 .bf16) (((cfg0.win 0).blk t).view.emb (ix2 r k)) = _
  refine (congrFun (V_main_v0 m c) _).trans ?_
  refine (truncf_apply (s := S8192x128) (φ := .f32) (ψ := .bf16) (m ((c : Thread nD τ).loc main_arg0) : FVec Ideal S8192x128 .f32) bitsLt_bf16_f32 _).trans ?_
  refine congrArg (m ((c : Thread nD τ).loc main_arg0) : S8192x128.Idx → EReal) ?_
  funext a
  apply Fin.ext
  match a with
  | ⟨0, _⟩ => show win0_0.index t (0 : Fin 2) * 128 + 1 * r.val = 128 * t.val + r.val; rw [h00]; omega
  | ⟨1, _⟩ => show win0_0.index t (1 : Fin 2) * 128 + 1 * k.val = k.val; rw [h01]; omega

/-- Window 1 at every point: the whole transpose of the embeddings. -/
theorem blk1 (t : Fin cfg0.N) (k : Fin 128) (cc : Fin 8192) :
    iblk m c 1 t (ix2 k cc) = m ((c : Thread nD τ).loc main_arg0) (ix2 cc k) := by
  obtain ⟨-, -, h10, h11, -⟩ := idx_facts t
  unfold iblk
  rw [View.read_apply]
  show (V m c main_v1 : FVec Ideal S128x8192 .bf16) (((cfg0.win 1).blk t).view.emb (ix2 k cc)) = _
  refine (congrFun (V_main_v1 m c) _).trans ?_
  have he : ((cfg0.win 1).blk t).view.emb (ix2 k cc) = (ix2 k cc : S128x8192.Idx) := by
    funext a
    apply Fin.ext
    match a with
    | ⟨0, _⟩ => show win0_1.index t (0 : Fin 2) * 128 + 1 * k.val = k.val; rw [h10]; omega
    | ⟨1, _⟩ => show win0_1.index t (1 : Fin 2) * 8192 + 1 * cc.val = cc.val; rw [h11]; omega
  refine (congrArg (transpose S128x8192 [1, 0]
    (truncf (F := Ideal) (s := S8192x128) (φ := .f32) .bf16 (m ((c : Thread nD τ).loc main_arg0)) bitsLt_bf16_f32)
    transposes_S8192x128_S128x8192_1_0) he).trans ?_
  refine (transpose_ix2_apply _ transposes_S8192x128_S128x8192_1_0 k cc).trans ?_
  exact truncf_apply (s := S8192x128) (φ := .f32) (ψ := .bf16)
    (m ((c : Thread nD τ).loc main_arg0) : FVec Ideal S8192x128 .f32) bitsLt_bf16_f32 _

/-- Window 2 at point `t`: the labels of rows `128 t … 128 t + 127`, as a column. -/
theorem blk2 (t : Fin cfg0.N) (r : Fin 128) :
    iblk m c 2 t (ix2 r (0 : Fin 1))
      = m ((c : Thread nD τ).loc main_arg1) (ix1 (⟨128 * t.val + r.val, by have := t_lt t; omega⟩ : Fin 8192)) := by
  obtain ⟨-, -, -, -, h20, h21, -⟩ := idx_facts t
  unfold iblk
  rw [View.read_apply]
  show (V m c main_v2 : IVec S8192x1 32) (((cfg0.win 2).blk t).view.emb (ix2 r (0 : Fin 1))) = _
  refine (congrFun (V_main_v2 m c) _).trans ?_
  have he : ((cfg0.win 2).blk t).view.emb (ix2 r (0 : Fin 1))
      = (ix2 (⟨128 * t.val + r.val, by have := t_lt t; omega⟩ : Fin 8192) (0 : Fin 1) : S8192x1.Idx) := by
    funext a
    apply Fin.ext
    match a with
    | ⟨0, _⟩ => show win0_2.index t (0 : Fin 2) * 128 + 1 * r.val = 128 * t.val + r.val; rw [h20]; omega
    | ⟨1, _⟩ => show win0_2.index t (1 : Fin 2) * 1 + 1 * 0 = 0; rw [h21]
  refine (congrArg (shapeCast S8192x1 (m ((c : Thread nD τ).loc main_arg1) : IVec S8192 32) shapeCasts_S8192_S8192x1) he).trans ?_
  exact Cert.LibCol.shapeCast_a_a1_apply _ shapeCasts_S8192_S8192x1 _ _

/-- Window 3 at every point: all the labels, as a row. -/
theorem blk3 (t : Fin cfg0.N) (cc : Fin 8192) :
    iblk m c 3 t (ix2 (0 : Fin 1) cc) = m ((c : Thread nD τ).loc main_arg1) (ix1 cc) := by
  obtain ⟨-, -, -, -, -, -, h30, h31⟩ := idx_facts t
  unfold iblk
  rw [View.read_apply]
  show (V m c main_v3 : IVec S1x8192 32) (((cfg0.win 3).blk t).view.emb (ix2 (0 : Fin 1) cc)) = _
  refine (congrFun (V_main_v3 m c) _).trans ?_
  have he : ((cfg0.win 3).blk t).view.emb (ix2 (0 : Fin 1) cc) = (ix2 (0 : Fin 1) cc : S1x8192.Idx) := by
    funext a
    apply Fin.ext
    match a with
    | ⟨0, _⟩ => show win0_3.index t (0 : Fin 2) * 1 + 1 * 0 = 0; rw [h30]
    | ⟨1, _⟩ => show win0_3.index t (1 : Fin 2) * 8192 + 1 * cc.val = cc.val; rw [h31]; omega
  refine (congrArg (shapeCast S1x8192 (m ((c : Thread nD τ).loc main_arg1) : IVec S8192 32) shapeCasts_S8192_S1x8192) he).trans ?_
  exact shapeCast_a_1a_apply _ shapeCasts_S8192_S1x8192 _ _

end Cert.KernelIdeal.Blocks

end
-- ==== Proof.KernelTiles.lean ====
/-
  What one grid point stores, in terms of the argument arrays. At point `t` the tile's row `r` is row
  `R = 128 t + r` of the whole arrays: its similarities, same-label words and diagonal words are the specification's
  `sim e R`, `same l R`, `diag R`; so row 0 of the stored block holds the sum of the losses of rows `128 t … 128 t + 127`
  and row 1 the number of those rows that count.
-/
import proofs.«101984_j78185584656815_2_alg».proof.Proof.KernelIdealFrame
import proofs.«101984_j78185584656815_2_alg».proof.Proof.KernelRows
import proofs.«101984_j78185584656815_2_alg».proof.Proof.KernelBlocks
import proofs.«101984_j78185584656815_2_alg».proof.Proof.Spec

noncomputable section

open scoped BigOperators

namespace Cert.KernelIdeal.Tiles

open Cert.KernelIdeal Cert.KernelIdeal.Gen Cert.KernelIdeal.GenP Cert.KernelIdeal.Rows Cert.KernelIdeal.Blocks
  Idealize.ShloMosaic Idealize.ShloMosaic.TcCoe Idealize.ShloMosaic.ValueIdx Idealize.SL.Sem Cert.Mining

/-! ## Words -/

/-- Row `r` of tile `t`, as a 32-bit word computed the body's way. -/
theorem word_row (t r : ℕ) : BitVec.ofNat 32 r + BitVec.ofNat 32 t * 128#32 = BitVec.ofNat 32 (128 * t + r) := by
  rw [show (128#32 : BitVec 32) = BitVec.ofNat 32 128 from rfl, ← BitVec.ofNat_mul, ← BitVec.ofNat_add]
  congr 1; omega

/-- Equality of words does not depend on the order of its operands. -/
theorem cmpi_eq_comm (a b : BitVec 32) : IntOp.cmpi .eq a b = IntOp.cmpi .eq b a := by
  unfold IntOp.cmpi
  by_cases h : a = b
  · subst h; rfl
  · have h' : ¬ b = a := fun e => h e.symm
    rw [beq_eq_false_iff_ne.mpr h, beq_eq_false_iff_ne.mpr h']

/-! ## The stored block over the point's blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- Row 0 of the stored block, every lane: the tile's sum of row losses. -/
theorem stored_loss (i : grid0.Coords) (x0 : Vec Ideal S128x128 .bf16) (x1 : Vec Ideal S128x8192 .bf16)
    (x2 : Vec Ideal S128x1 .i32) (x3 : Vec Ideal S1x8192 .i32) (l : Fin 128) :
    out0_4 (F := Ideal) i x0 x1 x2 x3 (ix3 (0 : Fin 1) (0 : Fin 8) l)
      = ∑ r : Fin 128, rowLoss (sK x0 x1 r) (qK x2 x3 r) (dK i r) := by
  unfold out0_4
  rw [View.canon_unit_zero hz3]
  simp only [View.ld_unit_zero (S := S128x128) hz2, View.ld_unit_zero (S := S128x8192) hz2,
    View.ld_unit_zero (S := S128x1) hz2, View.ld_unit_zero (S := S1x8192) hz2]
  rw [pay1_row0, tile_loss]

/-- Row 1 of the stored block, every lane: the tile's number of rows that count. -/
theorem stored_count (i : grid0.Coords) (x0 : Vec Ideal S128x128 .bf16) (x1 : Vec Ideal S128x8192 .bf16)
    (x2 : Vec Ideal S128x1 .i32) (x3 : Vec Ideal S1x8192 .i32) (l : Fin 128) :
    out0_4 (F := Ideal) i x0 x1 x2 x3 (ix3 (0 : Fin 1) (1 : Fin 8) l)
      = ∑ r : Fin 128, rowCount (sK x0 x1 r) (qK x2 x3 r) (dK i r) := by
  unfold out0_4
  rw [View.canon_unit_zero hz3]
  simp only [View.ld_unit_zero (S := S128x128) hz2, View.ld_unit_zero (S := S128x8192) hz2,
    View.ld_unit_zero (S := S128x1) hz2, View.ld_unit_zero (S := S1x8192) hz2]
  rw [pay1_row1, tile_count]

/-! ## The tile's rows are rows of the whole arrays -/

variable (m : (ℓ : Loc nD τ sig) → Buf (Elt Ideal) ℓ) (c : Dev nD)

theorem sK_eq (t : Fin cfg0.N) (r : Fin 128) (R : Fin 8192) (hR : R.val = 128 * t.val + r.val) :
    sK (iblk m c 0 t) (iblk m c 1 t) r = sim (m ((c : Thread nD τ).loc main_arg0)) R := by
  funext cc
  unfold sK sim
  refine Finset.sum_congr rfl fun k _ => ?_
  rw [blk0, blk1, show (⟨128 * t.val + r.val, by have := t_lt t; omega⟩ : Fin 8192) = R from Fin.ext hR.symm]

theorem qK_eq (t : Fin cfg0.N) (r : Fin 128) (R : Fin 8192) (hR : R.val = 128 * t.val + r.val) :
    qK (iblk m c 2 t) (iblk m c 3 t) r = same (m ((c : Thread nD τ).loc main_arg1)) R := by
  funext cc
  unfold qK same
  rw [blk2, blk3, show (⟨128 * t.val + r.val, by have := t_lt t; omega⟩ : Fin 8192) = R from Fin.ext hR.symm]

theorem dK_eq (t : Fin cfg0.N) (r : Fin 128) (R : Fin 8192) (hR : R.val = 128 * t.val + r.val) :
    dK (grid0.coords t) r = diag R := by
  funext cc
  unfold dK diag
  rw [coord, hR]
  refine (cmpi_eq_comm _ _).trans ?_
  exact congrArg (fun z => IntOp.cmpi .eq z (BitVec.ofNat 32 cc.val)) (word_row t.val r.val)

/-- What point `t` stores on row 0: the losses of rows `128 t … 128 t + 127`, summed. -/
theorem point_loss (t : Fin cfg0.N) (l : Fin 128) :
    out0_4 (F := Ideal) (grid0.coords t) (iblk m c 0 t) (iblk m c 1 t) (iblk m c 2 t) (iblk m c 3 t)
        (ix3 (0 : Fin 1) (0 : Fin 8) l)
      = ∑ r : Fin 128, rowLoss (sim (m ((c : Thread nD τ).loc main_arg0)) ⟨128 * t.val + r.val, by have := t_lt t; omega⟩)
          (same (m ((c : Thread nD τ).loc main_arg1)) ⟨128 * t.val + r.val, by have := t_lt t; omega⟩)
          (diag ⟨128 * t.val + r.val, by have := t_lt t; omega⟩) := by
  refine (stored_loss (grid0.coords t) (iblk m c 0 t) (iblk m c 1 t) (iblk m c 2 t) (iblk m c 3 t) l).trans ?_
  refine Finset.sum_congr rfl fun r _ => ?_
  have hb : 128 * t.val + r.val < 8192 := by have := t_lt t; omega
  rw [sK_eq m c t r ⟨128 * t.val + r.val, hb⟩ rfl, qK_eq m c t r ⟨128 * t.val + r.val, hb⟩ rfl,
    dK_eq t r ⟨128 * t.val + r.val, hb⟩ rfl]

/-- What point `t` stores on row 1: the number of rows among `128 t … 128 t + 127` that count. -/
theorem point_count (t : Fin cfg0.N) (l : Fin 128) :
    out0_4 (F := Ideal) (grid0.coords t) (iblk m c 0 t) (iblk m c 1 t) (iblk m c 2 t) (iblk m c 3 t)
        (ix3 (0 : Fin 1) (1 : Fin 8) l)
      = ∑ r : Fin 128, rowCount (sim (m ((c : Thread nD τ).loc main_arg0)) ⟨128 * t.val + r.val, by have := t_lt t; omega⟩)
          (same (m ((c : Thread nD τ).loc main_arg1)) ⟨128 * t.val + r.val, by have := t_lt t; omega⟩)
          (diag ⟨128 * t.val + r.val, by have := t_lt t; omega⟩) := by
  refine (stored_count (grid0.coords t) (iblk m c 0 t) (iblk m c 1 t) (iblk m c 2 t) (iblk m c 3 t) l).trans ?_
  refine Finset.sum_congr rfl fun r _ => ?_
  have hb : 128 * t.val + r.val < 8192 := by have := t_lt t; omega
  rw [sK_eq m c t r ⟨128 * t.val + r.val, hb⟩ rfl, qK_eq m c t r ⟨128 * t.val + r.val, hb⟩ rfl,
    dK_eq t r ⟨128 * t.val + r.val, hb⟩ rfl]

end Cert.KernelIdeal.Tiles

end
-- ==== Proof.KernelTail.lean ====
/-
  The kernel program after its grid: the result from the output array, and the output array entry by entry.

  The grid's 64 points each write one `[1, 8, 128]` tile of the output array `[64, 8, 128]`. The operations after the
  grid read the array's entries at `(t, 0, 0)` and at `(t, 1, 0)`, sum each family over the 64 tiles from zero, and divide
  the first sum by the greater of the second sum and one (`tail_result`). The tiles are pairwise disjoint and point `t`
  writes tile `t`, so the array's entry at `(t, a, l)` after the grid is the entry `(0, a, l)` of what point `t` left in its
  window (`arr_entry`).
-/
import proofs.«101984_j78185584656815_2_alg».proof.Proof.KernelIdealFrame
import Idealize.ShloMosaic.Lib.Pipeline.Value
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Tail

open Cert.KernelIdeal Cert.KernelIdeal.Gen Cert.KernelIdeal.GenP Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ)

/-- The output array after the grid's last point, as a function on its literal index type. -/
abbrev outArr (c : Dev nD) : S64x8x128.Idx → EReal := (dats m 0 c).arrAt 4 cfg0.N

/-- A sum over the indices of a vector is the sum over its one coordinate. -/
theorem sum_idx1 {M : Type*} [AddCommMonoid M] {n : ℕ} (f : (⟨1, ![n]⟩ : Shape).Idx → M) :
    ∑ i, f i = ∑ t : Fin n, f (ix1 t) :=
  (Fintype.sum_equiv (⟨fun t => ix1 t, fun j => j 0, fun _ => rfl, fun j => (eq_ix1 j).symm⟩ : Fin n ≃ (⟨1, ![n]⟩ : Shape).Idx)
    (fun t => f (ix1 t)) f (fun _ => rfl)).symm

/-- The slice of the output array at second coordinate `o`, third coordinate 0, reshaped to a vector and summed from
    the initial value: the initial value plus the sum over the 64 tiles of the array at `(t, o, 0)`. -/
theorem reduce_slice (A : S64x8x128.Idx → EReal) (o : Fin 8) (off : Fin 3 → ℕ)
    (h0 : off 0 = 0) (h1 : off 1 = o.val) (h2 : off 2 = 0)
    (hs : S64x8x128.Slices off S64x1x1) (hc : S64x1x1.ShapeCasts S64) (hr : S64.ReducesTo [0] S_) (hu : 0 < S_.numel)
    (j : S_.Idx) :
    Host.reduceAdd (F := Ideal) (φ := .f32) (shapeCast S64 (extractStridedSlice S64x1x1 off A hs) hc)
       (constant (F := Ideal) S_ .f32 0x00000000#32) hr hu j
     = Ideal.ofBits .f32 0x00000000#32 + ∑ t : Fin 64, A (ix3 t o (0 : Fin 128)) := by
  rw [hostReduceAdd_apply, Ideal.hostReduceAdd_total hr (fun b => b.elim0)]
  show Ideal.ofBits .f32 0x00000000#32 + ∑ i : S64.Idx, _ = _
  congr 1
  rw [sum_idx1]
  refine Finset.sum_congr rfl fun t _ => ?_
  rw [shapeCast_apply _ hc _ (ix3 t (0 : Fin 1) (0 : Fin 1)) ?_]
  · exact extractStridedSlice_apply off A hs (ix3 t (0 : Fin 1) (0 : Fin 1)) (ix3 t o 0) (fun a => by
      match a with
      | ⟨0, _⟩ => show t.val = off 0 + t.val; omega
      | ⟨1, _⟩ => show o.val = off 1 + 0; omega
      | ⟨2, _⟩ => show 0 = off 2 + 0; omega)
  · rw [Shape.rowMajor_val_three, Shape.rowMajor_val_one]
    show (t.val * 1 + 0) * 1 + 0 = t.val
    omega

/-- The program's result from the output array: the tiles' entries at `(t, 0, 0)` summed, over the greater of the
    tiles' entries at `(t, 1, 0)` summed and one. -/
theorem tail_result (c : Dev nD) :
    Pipeline.afterTail₀ cfgs (dats m) 0 (V0 m) [hostOps1] c main_v12
      = fun _ => Ideal.div (Ideal.ofBits .f32 0x00000000#32 + ∑ t : Fin 64, outArr m c (ix3 t (0 : Fin 8) (0 : Fin 128)))
          (max (Ideal.ofBits .f32 0x00000000#32 + ∑ t : Fin 64, outArr m c (ix3 t (1 : Fin 8) (0 : Fin 128))) (Ideal.ofBits .f32 0x3F800000#32)) := by
  unfold Pipeline.afterTail₀
  show StableHlo.after hostOps1 _ (Proc.devRef .tc main_v12) = _
  after_results
  rw [show Pipeline.withArrays (cfgs 0).spec c (V0 m c) (fun w => (dats m 0 c).arrAt w (cfgs 0).N) (Proc.devRef .tc main_v4)
      = (dats m 0 c).arrAt 4 cfg0.N from Pipeline.withArrays_arr spec0 launch0.win.arr_inj c _ _ 4]
  funext j
  rw [hostDivf_apply, maximumf_apply, constant_apply]
  refine congrArg₂ Ideal.div ?_ (congrArg₂ max ?_ rfl)
  · show Host.reduceAdd (F := Ideal) (φ := .f32) (shapeCast S64 (extractStridedSlice S64x1x1 ![0, 0, 0] (outArr m c) slices_S64x8x128_S64x1x1_0_0_0) shapeCasts_S64x1x1_S64)
        (constant (F := Ideal) S_ .f32 0x00000000#32) reducesTo_S64_S_d0 h_S_ j = _
    exact reduce_slice (outArr m c) 0 ![0, 0, 0] rfl rfl rfl _ _ _ _ j
  · show Host.reduceAdd (F := Ideal) (φ := .f32) (shapeCast S64 (extractStridedSlice S64x1x1 ![0, 1, 0] (outArr m c) slices_S64x8x128_S64x1x1_0_1_0) shapeCasts_S64x1x1_S64)
        (constant (F := Ideal) S_ .f32 0x00000000#32) reducesTo_S64_S_d0 h_S_ j = _
    exact reduce_slice (outArr m c) 1 ![0, 1, 0] rfl rfl rfl _ _ _ _ j

/-- What point `t` writes back to the output array is what the body leaves in the window's buffer there. -/
theorem flushed4 (c : Dev nD) (t : Fin cfg0.N) :
    (dats m 0 c).flushed 4 t = (cfg0.win 4).cut (grid0.coords t)
      (out0_4 (grid0.coords t) (iblk m c 0 t) (iblk m c 1 t) (iblk m c 2 t) (iblk m c 3 t)) := by
  show (cfg0.win 4).cut (grid0.coords t) ((dats m 0 c).after 4 t) = _
  rw [after0_4]

/-- The output window's index map sends distinct grid points to distinct blocks. -/
theorem idx_inj4 : ∀ t t' : Fin cfg0.N, win0_4.index t = win0_4.index t' → t = t' :=
  (by decide +kernel : ∀ t t' : Fin grid0.N, win0_4.index t = win0_4.index t' → t = t')

/-- So two points' blocks share no index of the array. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- Point `t`'s block is tile `t` of the array: its block index is `(t, 0, 0)`. -/
theorem idx4 : ∀ t : Fin cfg0.N, win0_4.index t (0 : Fin 3) = t.val ∧ win0_4.index t (1 : Fin 3) = 0 ∧ win0_4.index t (2 : Fin 3) = 0 :=
  (by decide +kernel : ∀ t : Fin grid0.N, win0_4.index t (0 : Fin 3) = t.val ∧ win0_4.index t (1 : Fin 3) = 0 ∧ win0_4.index t (2 : Fin 3) = 0)

/-- The output array entry by entry: tile `t` of the array after the grid is what point `t` wrote. -/
theorem arr_entry (c : Dev nD) (t : Fin cfg0.N) (T : Fin 64) (hT : T.val = t.val) (a : Fin 8) (l : Fin 128) :
    outArr m c (ix3 T a l)
      = out0_4 (grid0.coords t) (iblk m c 0 t) (iblk m c 1 t) (iblk m c 2 t) (iblk m c 3 t) (ix3 (0 : Fin 1) a l) := by
  obtain ⟨i0, i1, i2⟩ := idx4 t
  have h := (dats m 0 c).arrAt_emb_eq_flushed 4 disjoint4 t (flush0_4 t) (ix3 (0 : Fin 1) a l)
  have hemb : ((cfg0.win 4).blk t).view.emb (ix3 (0 : Fin 1) a l) = ix3 T a l := by
    funext ax; apply Fin.ext
    match ax with
    | ⟨0, _⟩ => show win0_4.index t (0 : Fin 3) * 1 + 1 * 0 = T.val; omega
    | ⟨1, _⟩ => show win0_4.index t (1 : Fin 3) * 8 + 1 * a.val = a.val; omega
    | ⟨2, _⟩ => show win0_4.index t (2 : Fin 3) * 128 + 1 * l.val = l.val; omega
  refine (congrArg (outArr m c) hemb).symm.trans (h.trans ?_)
  exact congrFun (flushed4 m c t) (ix3 (0 : Fin 1) a l)

end Cert.KernelIdeal.Tail
end
-- ==== Proof.KernelValue.lean ====
/-
  The kernel program's result. The host operations after the region read lane 0 of rows 0 and 1 of every stored block,
  sum each over the 64 grid points, and divide the first sum by the greater of the second and one. Point `t` stores the
  losses of rows `128 t … 128 t + 127` summed and the number of those rows that count, and 8192 rows are 64 tiles of 128
  rows, so the two sums are the specification's `total` and `count`, and the program's result is its `result`.
-/
import proofs.«101984_j78185584656815_2_alg».proof.Proof.KernelIdealFrame
import proofs.«101984_j78185584656815_2_alg».proof.Proof.KernelTiles
import proofs.«101984_j78185584656815_2_alg».proof.Proof.KernelTail
import proofs.«101984_j78185584656815_2_alg».proof.Proof.LibMaskCount
import proofs.«101984_j78185584656815_2_alg».proof.Proof.Spec

noncomputable section

open scoped BigOperators

namespace Cert.KernelIdeal.KValue

open Cert.KernelIdeal Cert.KernelIdeal.Gen Cert.KernelIdeal.GenP Cert.KernelIdeal.Tiles Cert.KernelIdeal.Blocks
  Cert.KernelIdeal.Tail Idealize.ShloMosaic Idealize.ShloMosaic.TcCoe Idealize.ShloMosaic.ValueIdx Idealize.SL.Sem Cert.Mining

variable (m : (ℓ : Loc nD τ sig) → Buf (Elt Ideal) ℓ) (ρ : Dev nD → PrngReg)

/-- Tile `T` as a grid point. -/
def pt (T : Fin 64) : Fin cfg0.N := Fin.cast N_0.symm T

/-- Lane 0 of row 0 of block `T` of the output array: the losses of rows `128 T … 128 T + 127`, summed. -/
theorem arr_loss (c : Dev nD) (T : Fin 64) :
    outArr m c (ix3 T (0 : Fin 8) (0 : Fin 128))
      = ∑ r : Fin 128, rowLoss (sim (m ((c : Thread nD τ).loc main_arg0)) ⟨128 * T.val + r.val, by omega⟩)
          (same (m ((c : Thread nD τ).loc main_arg1)) ⟨128 * T.val + r.val, by omega⟩) (diag ⟨128 * T.val + r.val, by omega⟩) :=
  (arr_entry m c (pt T) T rfl (0 : Fin 8) (0 : Fin 128)).trans (point_loss m c (pt T) (0 : Fin 128))

/-- Lane 0 of row 1 of block `T`: the number of rows among `128 T … 128 T + 127` that count. -/
theorem arr_count (c : Dev nD) (T : Fin 64) :
    outArr m c (ix3 T (1 : Fin 8) (0 : Fin 128))
      = ∑ r : Fin 128, rowCount (sim (m ((c : Thread nD τ).loc main_arg0)) ⟨128 * T.val + r.val, by omega⟩)
          (same (m ((c : Thread nD τ).loc main_arg1)) ⟨128 * T.val + r.val, by omega⟩) (diag ⟨128 * T.val + r.val, by omega⟩) :=
  (arr_entry m c (pt T) T rfl (1 : Fin 8) (0 : Fin 128)).trans (point_count m c (pt T) (0 : Fin 128))

/-- The value the host operations after the region leave in the result buffer. -/
theorem value (c : Dev nD) :
    Pipeline.afterTail₀ cfgs (dats m) 0 (V0 m) [hostOps1] c main_v12
      = fun _ => result (m ((c : Thread nD τ).loc main_arg0)) (m ((c : Thread nD τ).loc main_arg1)) := by
  rw [tail_result]
  funext _
  unfold Cert.Mining.result
  rw [Ideal.ofBits_zero_f32, zero_add, zero_add]
  refine congrArg₂ (fun a b => Ideal.div a (max b (Ideal.ofBits .f32 0x3F800000#32))) ?_ ?_
  · unfold Cert.Mining.total
    rw [← LibMaskCount.sum_tiles]
    exact Finset.sum_congr rfl fun T _ => arr_loss m c T
  · unfold Cert.Mining.count
    rw [← LibMaskCount.sum_tiles]
    exact Finset.sum_congr rfl fun T _ => arr_count m c T

/-- Every weakly fair execution of the kernel program ends with the specification's result in the result buffer and the
    argument arrays unchanged. -/
theorem run : θ_run defs (onTc (τ := τ) (main (F := Ideal))) ⟨m, fun _ => 0, ρ⟩ fun r => ∀ c : Dev nD,
      r.2.mem ((c.tc : Thread nD τ).loc main_v12)
          = (fun _ => result (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v12 (Pipeline.mem_restRefs_of main_v12 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference program computes the multi-similarity loss of the specification: each operation's value, read at
  explicit coordinates, is the corresponding row-wise quantity of the specification.
-/
import proofs.«101984_j78185584656815_2_alg».proof.Proof.Gen.ReferenceIdeal.Read
import proofs.«101984_j78185584656815_2_alg».proof.Proof.Spec
import proofs.«101984_j78185584656815_2_alg».proof.Proof.LibCol
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Read Idealize.ShloMosaic Idealize.ShloMosaic.ValueIdx Cert.Mining

variable (x0 : (⟨S8192x128, .f32⟩ : BufTy).Contents (Elt Ideal)) (x1 : (⟨S8192, .i32⟩ : BufTy).Contents (Elt Ideal))

/-- The similarity of rows `R` and `c`: the product of the embeddings with their transpose, read at `(R, c)`. -/
theorem v1_apply (R c : Fin 8192) : val_main_v1 (F := Ideal) x0 (ix2 R c) = sim x0 R c := by
  rw [val_main_v1_apply]
  unfold Cert.Mining.sim
  refine Finset.sum_congr rfl fun k _ => ?_
  rw [val_main_v0_apply]
  have e1 : lidx_main_v1 (ix2 R c) k = ix2 R k :=
    funext fun a => Fin.ext (by match a with | ⟨0, _⟩ => rfl | ⟨1, _⟩ => rfl)
  have e2 : idx_main_v0 (ridx_main_v1 (ix2 R c) k) = ix2 c k :=
    funext fun a => Fin.ext (by match a with | ⟨0, _⟩ => rfl | ⟨1, _⟩ => rfl)
  rw [e1, e2]

/-- The same-label word of rows `R` and `c`. -/
theorem v6_apply (R c : Fin 8192) : val_main_v6 (F := Ideal) x1 (ix2 R c) = same x1 R c := by
  rw [val_main_v6_apply, val_main_v4_apply, val_main_v5_apply, val_main_v2_apply, val_main_v3_apply]
  unfold Cert.Mining.same
  have e1 : idx_main_v2 (idx_main_v4 (ix2 R c)) = ix1 R :=
    funext fun a => Fin.ext (by match a with | ⟨0, _⟩ => rfl)
  have e2 : idx_main_v3 (idx_main_v5 (ix2 R c)) = ix1 c :=
    funext fun a => Fin.ext (by match a with | ⟨0, _⟩ => rfl)
  rw [e1, e2]

/-- The diagonal word at `(R, c)`. -/
theorem v11_apply (R c : Fin 8192) : val_main_v11 (F := Ideal) (ix2 R c) = diag R c := by
  rw [val_main_v11_apply, val_main_v10_apply, val_main_v7_apply, val_main_v8_apply, val_main_v9_apply, val_main_c_apply]
  unfold Cert.Mining.diag
  have e : IntOp.addi (BitVec.ofNat 32 R.val) 0#32 = BitVec.ofNat 32 R.val := by
    unfold IntOp.addi; exact BitVec.add_zero _
  exact congrArg (fun z => IntOp.cmpi .eq z (BitVec.ofNat 32 c.val)) e

theorem v13_apply (R c : Fin 8192) : val_main_v13 (F := Ideal) x1 (ix2 R c) = pos (same x1 R) (diag R) c := by
  rw [val_main_v13_apply, val_main_v12_apply, v6_apply, v11_apply]
  rfl

theorem v14_apply (R c : Fin 8192) : val_main_v14 (F := Ideal) x1 (ix2 R c) = neg (same x1 R) c := by
  rw [val_main_v14_apply, v6_apply]
  rfl

/-- The f32 word of `+∞` is the top of the extended reals. -/
theorem ofBits_posInf : Ideal.ofBits .f32 0x7F800000#32 = (⊤ : EReal) := by
  simp [Ideal.ofBits, Ideal.ieee]

/-- The f32 word of `-∞` is the bottom of the extended reals. -/
theorem ofBits_negInf : Ideal.ofBits .f32 0xFF800000#32 = (⊥ : EReal) := by
  simp [Ideal.ofBits, Ideal.ieee]

/-- The similarities of the positives, `+∞` elsewhere. -/
theorem v15_apply (R c : Fin 8192) :
    val_main_v15 (F := Ideal) x0 x1 (ix2 R c) = Scalar.select (pos (same x1 R) (diag R) c) (sim x0 R c) ⊤ := by
  rw [val_main_v15_apply, v13_apply, v1_apply, val_main_call0_v1_apply, val_main_call0_v0_apply, val_main_cst_apply]
  exact congrArg (Scalar.select (pos (same x1 R) (diag R) c) (sim x0 R c)) ofBits_posInf

/-- The least positive similarity of row `R`. -/
theorem v16_apply (R : Fin 8192) :
    val_main_v16 (F := Ideal) x0 x1 (ix1 R) = minPos (sim x0 R) (same x1 R) (diag R) := by
  have h : S8192x8192.Reduces [1] S8192 := by decide
  unfold val_main_v16
  refine (Host.reduce_eq_fold_single FloatOps.minimumf _ _ _ h _ (ix1 R)).trans ?_
  unfold Cert.Mining.minPos
  have hf : (val_main_v15 (F := Ideal) x0 x1 ∘ h.lift (ix1 R))
      = fun c : Fin 8192 => Scalar.select (pos (same x1 R) (diag R) c) (sim x0 R c) ⊤ :=
    funext fun k => (congrArg (val_main_v15 (F := Ideal) x0 x1) (Cert.LibCol.lift_last h R k)).trans (v15_apply x0 x1 R k)
  exact congrArg (fun f => Finset.fold min (Ideal.ofBits .f32 0x7F800000#32) f (Finset.univ : Finset (Fin 8192))) hf

/-- The mining threshold of the negatives, repeated along row `R`. -/
theorem v20_apply (R c : Fin 8192) :
    val_main_v20 (F := Ideal) x0 x1 (ix2 R c)
      = minPos (sim x0 R) (same x1 R) (diag R) - Ideal.ofBits .f32 0x3DCCCCCD#32 := by
  have e : idx_main_v19 (idx_main_v20 (ix2 R c)) = ix1 R :=
    funext fun a => Fin.ext (by match a with | ⟨0, _⟩ => rfl)
  rw [val_main_v20_apply, val_main_v19_apply, e, val_main_v18_apply, v16_apply, val_main_v17_apply,
    val_main_cst_1_apply]
  rfl

/-- The mined negatives of row `R`. -/
theorem v22_apply (R c : Fin 8192) :
    val_main_v22 (F := Ideal) x0 x1 (ix2 R c) = neg2 (sim x0 R) (same x1 R) (diag R) c := by
  rw [val_main_v22_apply, v14_apply, val_main_v21_apply, v1_apply, v20_apply]
  rfl

/-- The similarities of the mined negatives, `-∞` elsewhere. -/
theorem v23_apply (R c : Fin 8192) :
    val_main_v23 (F := Ideal) x0 x1 (ix2 R c)
      = Scalar.select (neg2 (sim x0 R) (same x1 R) (diag R) c) (sim x0 R c) ⊥ := by
  rw [val_main_v23_apply, v22_apply, v1_apply, val_main_call1_v1_apply, val_main_call1_v0_apply, val_main_cst_2_apply]
  exact congrArg (Scalar.select (neg2 (sim x0 R) (same x1 R) (diag R) c) (sim x0 R c)) ofBits_negInf

/-- The greatest mined negative similarity of row `R`. -/
theorem v24_apply (R : Fin 8192) :
    val_main_v24 (F := Ideal) x0 x1 (ix1 R) = maxNeg (sim x0 R) (same x1 R) (diag R) := by
  have h : S8192x8192.Reduces [1] S8192 := by decide
  unfold val_main_v24
  refine (Host.reduce_eq_fold_single FloatOps.maximumf _ _ _ h _ (ix1 R)).trans ?_
  unfold Cert.Mining.maxNeg
  have hf : (val_main_v23 (F := Ideal) x0 x1 ∘ h.lift (ix1 R))
      = fun c : Fin 8192 => Scalar.select (neg2 (sim x0 R) (same x1 R) (diag R) c) (sim x0 R c) ⊥ :=
    funext fun k => (congrArg (val_main_v23 (F := Ideal) x0 x1) (Cert.LibCol.lift_last h R k)).trans (v23_apply x0 x1 R k)
  exact congrArg (fun f => Finset.fold max (Ideal.ofBits .f32 0xFF800000#32) f (Finset.univ : Finset (Fin 8192))) hf

/-- The mining threshold of the positives, repeated along row `R`. -/
theorem v28_apply (R c : Fin 8192) :
    val_main_v28 (F := Ideal) x0 x1 (ix2 R c)
      = maxNeg (sim x0 R) (same x1 R) (diag R) + Ideal.ofBits .f32 0x3DCCCCCD#32 := by
  have e : idx_main_v27 (idx_main_v28 (ix2 R c)) = ix1 R :=
    funext fun a => Fin.ext (by match a with | ⟨0, _⟩ => rfl)
  rw [val_main_v28_apply, val_main_v27_apply, e, val_main_v26_apply, v24_apply, val_main_v25_apply,
    val_main_cst_4_apply]
  rfl

/-- The mined positives of row `R`. -/
theorem v30_apply (R c : Fin 8192) :
    val_main_v30 (F := Ideal) x0 x1 (ix2 R c) = pos2 (sim x0 R) (same x1 R) (diag R) c := by
  rw [val_main_v30_apply, v13_apply, val_main_v29_apply, v1_apply, v28_apply]
  rfl

/-- The weight of a mined positive, `0` elsewhere. -/
theorem v36_apply (R c : Fin 8192) :
    val_main_v36 (F := Ideal) x0 x1 (ix2 R c)
      = Scalar.select (pos2 (sim x0 R) (same x1 R) (diag R) c)
          (Ideal.exp (Ideal.ofBits .f32 0xC0000000#32 * (sim x0 R c - Ideal.ofBits .f32 0x3F000000#32))) 0 := by
  rw [val_main_v36_apply, v30_apply, val_main_v35_apply, val_main_v34_apply, val_main_v33_apply, val_main_cst_6_apply,
    val_main_v32_apply, v1_apply, val_main_v31_apply, val_main_cst_5_apply, val_main_call2_v1_apply,
    val_main_call2_v0_apply, val_main_cst_7_apply]
  exact congrArg (Scalar.select (pos2 (sim x0 R) (same x1 R) (diag R) c)
    (Ideal.exp (Ideal.ofBits .f32 0xC0000000#32 * (sim x0 R c - Ideal.ofBits .f32 0x3F000000#32)))) Ideal.ofBits_zero_f32

/-- The sum of the mined positives' weights of row `R`. -/
theorem v37_apply (R : Fin 8192) :
    val_main_v37 (F := Ideal) x0 x1 (ix1 R) = posSum (sim x0 R) (same x1 R) (diag R) := by
  rw [val_main_v37_apply, val_main_cst_8_apply]
  refine (congrArg (· + _) Ideal.ofBits_zero_f32).trans ?_
  rw [zero_add]
  unfold Cert.Mining.posSum
  refine Finset.sum_congr rfl fun k _ => ?_
  have e : idx_main_v37 (ix1 R) k = ix2 R k :=
    funext fun a => Fin.ext (by match a with | ⟨0, _⟩ => rfl | ⟨1, _⟩ => rfl)
  rw [e, v36_apply]

/-- The weight of a mined negative, `0` elsewhere. -/
theorem v43_apply (R c : Fin 8192) :
    val_main_v43 (F := Ideal) x0 x1 (ix2 R c)
      = Scalar.select (neg2 (sim x0 R) (same x1 R) (diag R) c)
          (Ideal.exp (Ideal.ofBits .f32 0x42480000#32 * (sim x0 R c - Ideal.ofBits .f32 0x3F000000#32))) 0 := by
  rw [val_main_v43_apply, v22_apply, val_main_v42_apply, val_main_v41_apply, val_main_v40_apply, val_main_cst_10_apply,
    val_main_v39_apply, v1_apply, val_main_v38_apply, val_main_cst_9_apply, val_main_call3_v1_apply,
    val_main_call3_v0_apply, val_main_cst_11_apply]
  exact congrArg (Scalar.select (neg2 (sim x0 R) (same x1 R) (diag R) c)
    (Ideal.exp (Ideal.ofBits .f32 0x42480000#32 * (sim x0 R c - Ideal.ofBits .f32 0x3F000000#32)))) Ideal.ofBits_zero_f32

/-- The sum of the mined negatives' weights of row `R`. -/
theorem v44_apply (R : Fin 8192) :
    val_main_v44 (F := Ideal) x0 x1 (ix1 R) = negSum (sim x0 R) (same x1 R) (diag R) := by
  rw [val_main_v44_apply, val_main_cst_12_apply]
  refine (congrArg (· + _) Ideal.ofBits_zero_f32).trans ?_
  rw [zero_add]
  unfold Cert.Mining.negSum
  refine Finset.sum_congr rfl fun k _ => ?_
  have e : idx_main_v44 (ix1 R) k = ix2 R k :=
    funext fun a => Fin.ext (by match a with | ⟨0, _⟩ => rfl | ⟨1, _⟩ => rfl)
  rw [e, v43_apply]

/-- The loss of row `R`. -/
theorem v51_apply (R : Fin 8192) :
    val_main_v51 (F := Ideal) x0 x1 (ix1 R) = loss (sim x0 R) (same x1 R) (diag R) := by
  rw [val_main_v51_apply, val_main_v47_apply, val_main_v50_apply, val_main_v45_apply, val_main_v48_apply,
    v37_apply, v44_apply, val_main_v46_apply, val_main_v49_apply, val_main_cst_13_apply, val_main_cst_14_apply]
  rfl

/-- Row `R` has a mined positive. -/
theorem v52_apply (R : Fin 8192) :
    val_main_v52 (F := Ideal) x0 x1 (ix1 R)
      = (Finset.univ : Finset (Fin 8192)).fold IntOp.ori 0#1 (pos2 (sim x0 R) (same x1 R) (diag R)) := by
  have h : S8192x8192.Reduces [1] S8192 := by decide
  unfold val_main_v52
  refine (Host.reduce_eq_fold_single IntOp.ori _ _ _ h _ (ix1 R)).trans ?_
  have hf : (val_main_v30 (F := Ideal) x0 x1 ∘ h.lift (ix1 R)) = pos2 (sim x0 R) (same x1 R) (diag R) :=
    funext fun k => (congrArg (val_main_v30 (F := Ideal) x0 x1) (Cert.LibCol.lift_last h R k)).trans (v30_apply x0 x1 R k)
  exact congrArg (fun f => Finset.fold IntOp.ori 0#1 f (Finset.univ : Finset (Fin 8192))) hf

/-- Row `R` has a mined negative. -/
theorem v53_apply (R : Fin 8192) :
    val_main_v53 (F := Ideal) x0 x1 (ix1 R)
      = (Finset.univ : Finset (Fin 8192)).fold IntOp.ori 0#1 (neg2 (sim x0 R) (same x1 R) (diag R)) := by
  have h : S8192x8192.Reduces [1] S8192 := by decide
  unfold val_main_v53
  refine (Host.reduce_eq_fold_single IntOp.ori _ _ _ h _ (ix1 R)).trans ?_
  have hf : (val_main_v22 (F := Ideal) x0 x1 ∘ h.lift (ix1 R)) = neg2 (sim x0 R) (same x1 R) (diag R) :=
    funext fun k => (congrArg (val_main_v22 (F := Ideal) x0 x1) (Cert.LibCol.lift_last h R k)).trans (v22_apply x0 x1 R k)
  exact congrArg (fun f => Finset.fold IntOp.ori 0#1 f (Finset.univ : Finset (Fin 8192))) hf

/-- Row `R` counts. -/
theorem v54_apply (R : Fin 8192) :
    val_main_v54 (F := Ideal) x0 x1 (ix1 R) = valid (sim x0 R) (same x1 R) (diag R) := by
  rw [val_main_v54_apply, v52_apply, v53_apply]
  rfl

/-- The loss of row `R` when it counts, `0` otherwise. -/
theorem v55_apply (R : Fin 8192) :
    val_main_v55 (F := Ideal) x0 x1 (ix1 R) = rowLoss (sim x0 R) (same x1 R) (diag R) := by
  rw [val_main_v55_apply, v54_apply, v51_apply, val_main_call4_v1_apply, val_main_call4_v0_apply, val_main_cst_17_apply]
  exact congrArg (Scalar.select (valid (sim x0 R) (same x1 R) (diag R)) (loss (sim x0 R) (same x1 R) (diag R)))
    Ideal.ofBits_zero_f32

/-- The counting word of row `R`, widened to 32 bits. -/
theorem v56_apply (R : Fin 8192) :
    val_main_v56 (F := Ideal) x0 x1 (ix1 R) = (valid (sim x0 R) (same x1 R) (diag R)).setWidth 32 := by
  rw [val_main_v56_apply, v54_apply]

/-- A rank-1 index set is its coordinate range. -/
def idxEquiv1 {n : Nat} : (⟨1, ![n]⟩ : Shape).Idx ≃ Fin n where
  toFun i := i 0
  invFun p := ix1 p
  left_inv i := (eq_ix1 i).symm
  right_inv _ := rfl

/-- A fold over a rank-1 index set is the fold over its coordinate range. -/
theorem fold_univ_idx1 {α : Type} {n : Nat} (op : α → α → α) [Std.Commutative op] [Std.Associative op] (b : α)
    (f : (⟨1, ![n]⟩ : Shape).Idx → α) :
    (Finset.univ : Finset (⟨1, ![n]⟩ : Shape).Idx).fold op b f
      = (Finset.univ : Finset (Fin n)).fold op b fun k => f (ix1 k) := by
  rw [← Finset.map_univ_equiv (idxEquiv1 (n := n)).symm, Finset.fold_map]
  rfl

/-- A fold over the elements satisfying a condition that every element satisfies is the fold over all of them. -/
theorem fold_filter_all {ι α : Type} [Fintype ι] (p : ι → Prop) [DecidablePred p] (hall : ∀ i, p i)
    (op : α → α → α) [Std.Commutative op] [Std.Associative op] (b : α) (f : ι → α) :
    (Finset.univ.filter p).fold op b f = Finset.univ.fold op b f := by
  rw [Finset.filter_true_of_mem (fun i _ => hall i)]

/-- The number of rows that count, as a 32-bit word: a reduction over every axis folds over all the rows. -/
theorem v57_apply :
    val_main_v57 (F := Ideal) x0 x1 ix0
      = (Finset.univ : Finset (Fin 8192)).fold IntOp.addi 0#32
          fun R => (valid (sim x0 R) (same x1 R) (diag R)).setWidth 32 := by
  unfold val_main_v57
  refine (Host.reduce_eq_fold IntOp.addi _ _ _ _ ix0).trans ?_
  refine (fold_filter_all _ (fun i => (eq_ix0 _).trans (eq_ix0 _).symm) _ _ _).trans ?_
  refine (fold_univ_idx1 IntOp.addi _ _).trans ?_
  exact congrArg (fun f => Finset.fold IntOp.addi 0#32 f (Finset.univ : Finset (Fin 8192)))
    (funext fun k => v56_apply x0 x1 k)

/-- The sum of the rows' losses. -/
theorem v60_apply (i : S_.Idx) : val_main_v60 (F := Ideal) x0 x1 i = total x0 x1 := by
  rw [val_main_v60_apply, val_main_cst_20_apply]
  refine (congrArg (· + _) Ideal.ofBits_zero_f32).trans ?_
  rw [zero_add]
  unfold Cert.Mining.total
  refine (Equiv.sum_comp (idxEquiv1 (n := 8192)).symm (val_main_v55 (F := Ideal) x0 x1)).symm.trans ?_
  exact Finset.sum_congr rfl fun R _ => v55_apply x0 x1 R

/-- The reference's result: the sum of the rows' losses over the number of rows that count, or over `1`. -/
theorem ref_result (x0 : (⟨S8192x128, .f32⟩ : BufTy).Contents (Elt Ideal)) (x1 : (⟨S8192, .i32⟩ : BufTy).Contents (Elt Ideal)) :
    val_main_v61 (F := Ideal) x0 x1 = fun _ =>
      Ideal.div (Cert.Mining.total x0 x1)
        ((((IntOp.maxsi ((Finset.univ : Finset (Fin 8192)).fold IntOp.addi 0#32
              fun R => (Cert.Mining.valid (Cert.Mining.sim x0 R) (Cert.Mining.same x1 R) (Cert.Mining.diag R)).setWidth 32) 1#32).toInt : ℝ)) : EReal) := by
  funext i
  have hi := eq_ix0 i
  subst hi
  rw [val_main_v61_apply, v60_apply, val_main_v59_apply, val_main_v58_apply, v57_apply, val_main_c_19_apply]
  rfl

end Cert.ReferenceIdeal.RefValue

end
-- ==== Proof.lean ====
/-
  The certificate of the multi-similarity loss kernel against its jnp reference.

  Both idealized programs compute, over the extended reals, the loss `Cert.Mining.result e l` of the embeddings `e`
  and labels `l` (Proof/Spec.lean): row by row, the hardest positive's and the hardest mined negative's similarities
  select the mined pairs, the row's loss is `log1p (∑ exp (-2 (s - 1/2))) / 2 + log1p (∑ exp (50 (s - 1/2))) / 50` over
  them when both sets are non-empty, and the result is the rows' losses summed over the number of such rows (or one).
  The kernel tiles the rows by 128, tests "a mask has a set word" by "the sum of its words is positive", counts in
  floats and fills masked similarities with a large finite number that the idealization names the infinity it stands
  for; the reference tests by OR, counts in 32-bit integers and fills with the infinities. The sums regroup (addition
  of extended reals is commutative and associative), the tests and the counts agree word by word, and the matrix product
  into zero is the dot product, entry by entry; the precondition is not used.
-/
import proofs.«101984_j78185584656815_2_alg».proof.Defs
import proofs.«101984_j78185584656815_2_alg».proof.Proof.Gen.Kernel
import proofs.«101984_j78185584656815_2_alg».proof.Proof.Gen.KernelIdeal
import proofs.«101984_j78185584656815_2_alg».proof.Proof.Gen.ReferenceIdeal
import proofs.«101984_j78185584656815_2_alg».proof.Proof.Gen.ReferenceIdeal.Run
import proofs.«101984_j78185584656815_2_alg».proof.Proof.Gen.ReferenceIdeal.Read
import proofs.«101984_j78185584656815_2_alg».proof.Proof.Gen.Pre_finite_inputs
import proofs.«101984_j78185584656815_2_alg».proof.Proof.KernelFrame
import proofs.«101984_j78185584656815_2_alg».proof.Proof.KernelIdealFrame
import proofs.«101984_j78185584656815_2_alg».proof.Proof.KernelValue
import proofs.«101984_j78185584656815_2_alg».proof.Proof.RefValue
import proofs.«101984_j78185584656815_2_alg».proof.Proof.LibMaskCount
import proofs.«101984_j78185584656815_2_alg».proof.Proof.Spec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two named fills: the table gives the large positive number the value `+∞` and the large negative one `-∞`. -/
theorem preserves : Cert.preserves_Kernel_KernelIdeal :=
  ⟨IdealRules.named_const.statement Cert.KernelIdeal.κ "pos_big" .f32 0x7149F2CA#32 ⊤ rfl,
    IdealRules.named_const.statement Cert.KernelIdeal.κ "neg_big" .f32 0xF149F2CA#32 ⊥ rfl⟩

/-- The reference's result is the specification's: its integer count of the rows that count, at least one, read as a
    real, is the greater of the real count and one. -/
theorem ref_value (x0 : (⟨Cert.ReferenceIdeal.S8192x128, .f32⟩ : BufTy).Contents (Elt Ideal))
    (x1 : (⟨Cert.ReferenceIdeal.S8192, .i32⟩ : BufTy).Contents (Elt Ideal)) :
    Cert.ReferenceIdeal.Read.val_main_v61 (F := Ideal) x0 x1 = fun _ => Cert.Mining.result x0 x1 := by
  rw [Cert.ReferenceIdeal.RefValue.ref_result]
  funext _
  unfold Cert.Mining.result Cert.Mining.count Cert.Mining.rowCount
  refine congrArg (Ideal.div _) ?_
  rw [Cert.LibMaskCount.count_eq (by norm_num), Cert.LibMaskCount.ofBits_one]

/-- Both idealized programs end with the specification's result of the (agreeing) argument arrays. -/
theorem algebraic : Cert.algebraic_KernelIdeal_ReferenceIdeal := by
  intro m ρ m' ρ' _ hagree
  refine ⟨fun c _ => Cert.Mining.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, ref_value, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
